-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x4096 : Shape := ⟨3, ![4, 512, 4096]⟩
abbrev S4x4096x64 : Shape := ⟨3, ![4, 4096, 64]⟩
abbrev S_ : Shape := ⟨0, ![]⟩

class Facts : Prop where
  bcast_S_S4x512x4096 : S_.BroadcastsInDim S4x512x4096 (![] : Fin 0 → Fin S4x512x4096.rank)
  reducesTo_S4x512x4096_S_d0_1_2 : S4x512x4096.ReducesTo [0, 1, 2] S_
  h_S_ : 0 < S_.numel
  bcast_S_S4x4096x64 : S_.BroadcastsInDim S4x4096x64 (![] : Fin 0 → Fin S4x4096x64.rank)
  reducesTo_S4x4096x64_S_d0_1_2 : S4x4096x64.ReducesTo [0, 1, 2] S_

variable [Facts]

def fn {F : FTy → Type} [FloatOps F] (main_arg0 : FVec F S4x512x4096 .f32) (main_arg1 : FVec F S4x4096x64 .f32) (main_arg2 : FVec F S4x4096x64 .f32) : IVec S_ 1 :=
  let main_v0 : FVec F S4x512x4096 .f32 := Host.absf main_arg0
  let main_cst : FVec F S_ .f32 := constant S_ .f32 0x7F800000#32
  let main_v1 : FVec F S4x512x4096 .f32 := broadcastInDim S4x512x4096 ![] bcast_S_S4x512x4096 main_cst
  let main_v2 : IVec S4x512x4096 1 := cmpf .olt main_v0 main_v1
  let main_c : IVec S_ 1 := constantI S_ 1 1#1
  let main_v3 : IVec S_ 1 := (fun x v => Host.reduce IntOp.andi x v reducesTo_S4x512x4096_S_d0_1_2 h_S_) main_v2 main_c
  let main_v4 : FVec F S4x4096x64 .f32 := Host.absf main_arg1
  let main_cst_0 : FVec F S_ .f32 := constant S_ .f32 0x7F800000#32
  let main_v5 : FVec F S4x4096x64 .f32 := broadcastInDim S4x4096x64 ![] bcast_S_S4x4096x64 main_cst_0
  let main_v6 : IVec S4x4096x64 1 := cmpf .olt main_v4 main_v5
  let main_c_1 : IVec S_ 1 := constantI S_ 1 1#1
  let main_v7 : IVec S_ 1 := (fun x v => Host.reduce IntOp.andi x v reducesTo_S4x4096x64_S_d0_1_2 h_S_) main_v6 main_c_1
  let main_v8 : IVec S_ 1 := andi main_v3 main_v7
  let main_v9 : FVec F S4x4096x64 .f32 := Host.absf main_arg2
  let main_cst_2 : FVec F S_ .f32 := constant S_ .f32 0x7F800000#32
  let main_v10 : FVec F S4x4096x64 .f32 := broadcastInDim S4x4096x64 ![] bcast_S_S4x4096x64 main_cst_2
  let main_v11 : IVec S4x4096x64 1 := cmpf .olt main_v9 main_v10
  let main_c_3 : IVec S_ 1 := constantI S_ 1 1#1
  let main_v12 : IVec S_ 1 := (fun x v => Host.reduce IntOp.andi x v reducesTo_S4x4096x64_S_d0_1_2 h_S_) main_v11 main_c_3
  let main_v13 : IVec S_ 1 := andi main_v8 main_v12
  main_v13
-- ==== Kernel.lean ====
abbrev S4x512x4096 : Shape := ⟨3, ![4, 512, 4096]⟩
abbrev S4x4096x64 : Shape := ⟨3, ![4, 4096, 64]⟩
abbrev S1x512x1024 : Shape := ⟨3, ![1, 512, 1024]⟩
abbrev S1x1024x64 : Shape := ⟨3, ![1, 1024, 64]⟩
abbrev S512x1024 : Shape := ⟨2, ![512, 1024]⟩
abbrev S1x1024 : Shape := ⟨2, ![1, 1024]⟩
abbrev S1024x64 : Shape := ⟨2, ![1024, 64]⟩
abbrev S64x1024 : Shape := ⟨2, ![64, 1024]⟩
abbrev S1024x1024 : Shape := ⟨2, ![1024, 1024]⟩
abbrev S1024 : Shape := ⟨1, ![1024]⟩

abbrev nBuf : Space → Nat
  | .hbm => 5
  | .vmem => 13
  | .smem => 0
  | _ => 0

abbrev bufTy : (tb : Table) → Fin (tcTables nBuf tb) → BufTy
  | .hbm, ⟨0, _⟩ => ⟨S4x512x4096, .f32⟩
  | .hbm, ⟨1, _⟩ => ⟨S4x4096x64, .f32⟩
  | .hbm, ⟨2, _⟩ => ⟨S4x4096x64, .f32⟩
  | .hbm, ⟨3, _⟩ => ⟨S4x512x4096, .bf16⟩
  | .hbm, ⟨4, _⟩ => ⟨S4x512x4096, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .f32⟩
  | .local _ .vmem, ⟨3, _⟩ => ⟨S1x512x1024, .f32⟩
  | .local _ .vmem, ⟨4, _⟩ => ⟨S1x1024x64, .f32⟩
  | .local _ .vmem, ⟨5, _⟩ => ⟨S1x1024x64, .f32⟩
  | .local _ .vmem, ⟨6, _⟩ => ⟨S1x1024x64, .f32⟩
  | .local _ .vmem, ⟨7, _⟩ => ⟨S1x1024x64, .f32⟩
  | .local _ .vmem, ⟨8, _⟩ => ⟨S1x512x1024, .f32⟩
  | .local _ .vmem, ⟨9, _⟩ => ⟨S1x512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | _, _ => ⟨S4x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v40 : BitVec 1 := Scalar.cmpi .eq arg2 c3_i32
  let v41 : BitVec 32 := Scalar.extui v40
  let c0_i32_24 : BitVec 32 := 0#32
  let v42 : BitVec 1 := Scalar.cmpi .ne v41 c0_i32_24
  v42

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  transposes_S1024x64_p1_0_S64x1024 : S1024x64.Transposes [1, 0] S64x1024
  reduces_S1024x1024_S1024 : S1024x1024.Reduces [0] S1024
  shapeCasts_S1024_S1x1024 : S1024.ShapeCasts S1x1024
  broadcasts_S1x1024_S1024x1024 : S1x1024.Broadcasts S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  broadcasts_S1x1024_S512x1024 : S1x1024.Broadcasts S512x1024
  shapeCasts_S512x1024_S1x512x1024 : S512x1024.ShapeCasts S1x512x1024
  dot_S1024x64_S64x1024_S1024x1024_1_0_0_1_n_n_wf : DotDims.WF S1024x64 S64x1024 S1024x1024 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x512x4096.size a
  hwx0_0 : ∀ i : grid0.Coords, EltTy.bits .bf16 = 32 ∨ (Rect.block (s := S4x512x4096) S1x512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S4x512x4096.size a
  hwx0_1 : ∀ i : grid0.Coords, EltTy.bits .f32 = 32 ∨ (Rect.block (s := S4x512x4096) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S4x4096x64.size a
  hwx0_2 : ∀ i : grid0.Coords, EltTy.bits .f32 = 32 ∨ (Rect.block (s := S4x4096x64) S1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S4x4096x64.size a
  hwx0_3 : ∀ i : grid0.Coords, EltTy.bits .f32 = 32 ∨ (Rect.block (s := S4x4096x64) S1x1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S4x512x4096.size a
  hwx0_4 : ∀ i : grid0.Coords, EltTy.bits .f32 = 32 ∨ (Rect.block (s := S4x512x4096) S1x512x1024.size (cc0_transform_4 i) (hinb0_4 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x1024x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x512x4096 : Shape := ⟨3, ![4, 512, 4096]⟩
abbrev S4x4096x64 : Shape := ⟨3, ![4, 4096, 64]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4x512x4096, .f32⟩
  | .hbm, ⟨1, _⟩ => ⟨S4x4096x64, .f32⟩
  | .hbm, ⟨2, _⟩ => ⟨S4x4096x64, .f32⟩
  | .hbm, ⟨3, _⟩ => ⟨S4x4096x4096, .f32⟩
  | .hbm, ⟨4, _⟩ => ⟨S_, .f32⟩
  | .hbm, ⟨5, _⟩ => ⟨S4x4096, .f32⟩
  | .hbm, ⟨6, _⟩ => ⟨S_, .f32⟩
  | .hbm, ⟨7, _⟩ => ⟨S4x4096, .f32⟩
  | .hbm, ⟨8, _⟩ => ⟨S4x4096, .f32⟩
  | .hbm, ⟨9, _⟩ => ⟨S4x4096x1, .f32⟩
  | .hbm, ⟨10, _⟩ => ⟨S4x4096x4096, .f32⟩
  | .hbm, ⟨11, _⟩ => ⟨S4x4096x4096, .f32⟩
  | .hbm, ⟨12, _⟩ => ⟨S4x4096x4096, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S4x4096x4096, .f32⟩
  | .hbm, ⟨17, _⟩ => ⟨S4x4096x4096, .f32⟩
  | .hbm, ⟨18, _⟩ => ⟨S4x512x4096, .f32⟩
  | .hbm, ⟨19, _⟩ => ⟨S4x512x4096, .f32⟩
  | _, _ => ⟨S4x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x64_S4x4096x64_S4x4096x4096_2_2_1_1_0_0_wf : DotDims.WF S4x4096x64 S4x4096x64 S4x4096x4096 [2] [2] [1] [1] [0] [0]
  dot_S4x512x4096_S4x4096x4096_S4x512x4096_2_2_1_1_0_0_wf : DotDims.WF S4x512x4096 S4x4096x4096 S4x512x4096 [2] [2] [1] [1] [0] [0]

variable [Facts₀]

def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x512x4096_S4x4096x4096_S4x512x4096_2_2_1_1_0_0 : DotDims S4x512x4096 S4x4096x4096 S4x512x4096 where
  lhsContracting := [2]
  rhsContracting := [2]
  lhsNonContracting := [1]
  rhsNonContracting := [1]
  lhsBatch := [0]
  rhsBatch := [0]
  wf := dot_S4x512x4096_S4x4096x4096_S4x512x4096_2_2_1_1_0_0_wf

class Facts : Prop extends Facts₀ where

variable [Facts]
-- ==== Proof.Finite.lean ====
/-
  The precondition says that every entry of the three argument arrays has absolute value below `+∞`.
  Over the extended reals that is: every entry is a real number.
-/
import proofs.«130554_j28587302322762_2_alg».proof.Pre_finite_inputs
import Idealize.ShloMosaic.PureOps.Ideal.Laws
import Idealize.ShloMosaic.Lib.ReduceAll
import Idealize.ShloMosaic.Lib.ValueIdx
import Idealize.ShloMosaic.Lib.Affine

noncomputable section

open Idealize.ShloMosaic

namespace Cert.FiniteInputs

open Cert.Pre_finite_inputs

instance : Subsingleton S_.Idx := ⟨fun a b => funext fun d => d.elim0⟩

/-- The word `0x7F800000` denotes `+∞`. -/
theorem inf_word : Ideal.ofBits .f32 0x7F800000#32 = ⊤ := by simp [Ideal.ofBits, Ideal.ieee]

/-- An extended real whose absolute value is below `+∞` is a real. -/
theorem real_of_abs_lt (x : EReal)
    (h : FloatOps.cmpf (F := Ideal) (φ := .f32) .olt (FloatOps.hostAbsf x) (FloatOps.ofBits .f32 0x7F800000#32) = 1#1) :
    ∃ r : ℝ, x = (r : EReal) := by
  rw [Ideal.cmpf_def, Ideal.hostAbsf_def, Ideal.absf_def, Ideal.ofBits_def, inf_word] at h
  induction x using EReal.rec with
  | bot => exfalso; simp [Ideal.cmp] at h
  | top => exfalso; simp [Ideal.cmp] at h
  | coe r => exact ⟨r, rfl⟩

/-- Under the precondition all three arrays are real-valued. -/
theorem all_real [Facts] (a : FVec Ideal S4x512x4096 .f32) (b c : FVec Ideal S4x4096x64 .f32)
    (h : fn (F := Ideal) a b c = fun _ => 1#1) :
    (∀ i, ∃ r : ℝ, a i = (r : EReal)) ∧ (∀ i, ∃ r : ℝ, b i = (r : EReal)) ∧ (∀ i, ∃ r : ℝ, c i = (r : EReal)) := by
  have h0 := congrFun h ValueIdx.ix0
  dsimp only [fn] at h0
  change IntOp.andi _ _ = 1#1 at h0
  obtain ⟨h01, h2⟩ := IntOp.andi_eq_one.mp h0
  change IntOp.andi _ _ = 1#1 at h01
  obtain ⟨ha, hb⟩ := IntOp.andi_eq_one.mp h01
  exact ⟨fun i => real_of_abs_lt (a i) (Host.reduce_andi_all _ _ _ _ _ ha i),
    fun i => real_of_abs_lt (b i) (Host.reduce_andi_all _ _ _ _ _ hb i),
    fun i => real_of_abs_lt (c i) (Host.reduce_andi_all _ _ _ _ _ h2 i)⟩

end Cert.FiniteInputs

end
-- ==== Proof.Pieces.lean ====
/-
  What one run of the kernel's body leaves in its three carried buffers and, at the last key tile, in the output
  block — as pure functions of the blocks it loads.

  The body keeps, for every query lane of the tile, a running shift `m`, a running normaliser `l` and a running
  weighted sum `acc` (one row per channel).  At each key tile it forms the scores of the tile's keys against the
  tile's queries, takes the new shift `m' = max(m, max over the tile's keys of the score)`, and updates
  `l' = e^{m - m'} · l + Σ_keys e^{score - m'}`, `acc' = e^{m - m'} · acc + values · e^{score - m'}`.
  At the first key tile the three buffers are first reset (`m` to a large negative constant, `l` and `acc` to zero)
  and then read back; at the last key tile the output block is `acc' · (1 / l') + residual`.
  The three control cases of the body differ only in where the previous `m`, `l`, `acc` come from.
-/
import proofs.«130554_j28587302322762_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Body

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The new running shift, from the query block `q`, the key block `k` and the previous shift. -/
def newM (q k : Vec F S1x1024x64 .f32) (mp : Vec F S1x1024 .f32) : Vec F S1x1024 .f32 :=
  k0_pay2 (k0_pay8 q k mp)
/-- The new running normaliser, from the previous shift and normaliser. -/
def newL (q k : Vec F S1x1024x64 .f32) (mp lp : Vec F S1x1024 .f32) : Vec F S1x1024 .f32 :=
  k0_pay11 q k mp lp
/-- The new running weighted sum, from the value block `av` and the previous shift and weighted sum. -/
def newAcc (q k : Vec F S1x1024x64 .f32) (mp : Vec F S1x1024 .f32) (av : Vec F S1x512x1024 .bf16)
    (accp : Vec F S512x1024 .f32) : Vec F S512x1024 .f32 :=
  k0_pay1 (k0_pay12 q k mp av) accp (k0_pay13 q k mp)
/-- The output block written at the last key tile: `acc · (1 / l) + residual`. -/
def outBlock (l : Vec F S1x1024 .f32) (acc : Vec F S512x1024 .f32) (res : Vec F S1x512x1024 .f32) :
    Vec F S1x512x1024 .f32 :=
  k0_pay3 l acc res

/-! ## A middle key tile: the previous values are what the point before left -/

theorem m_B (c : Dev nD) (i : grid0.Coords) (arg3 : Memref sig .tc .vmem S1x512x1024 .bf16) (harg3 : arg3.IsWhole) (arg4 : Memref sig .tc .vmem S1x512x1024 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1x512x1024 .f32) (harg7 : arg7.IsWhole) (arg8 : Memref sig .tc .vmem S512x1024 .f32) (harg8 : arg8.IsWhole) (arg9 : Memref sig .tc .vmem S1x1024 .f32) (harg9 : arg9.IsWhole) (arg10 : Memref sig .tc .vmem S1x1024 .f32) (harg10 : arg10.IsWhole) (hc0 : ¬cond0_0 i) (hc1 : ¬cond0_1 i)
    (x0 : Vec F S1x512x1024 .bf16) (x1 : Vec F S1x512x1024 .f32) (x2 : Vec F S1x1024x64 .f32) (x3 : Vec F S1x1024x64 .f32) (xs0 : Vec F S512x1024 .f32) (xs1 : Vec F S1x1024 .f32) (xs2 : Vec F S1x1024 .f32) :
    sout0_B_1 c i arg3 harg3 arg4 harg4 arg5 harg5 arg6 harg6 arg7 harg7 arg8 harg8 arg9 harg9 arg10 harg10 hc0 hc1 x0 x1 x2 x3 xs0 xs1 xs2 = newM x2 x3 xs1 := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 x3 xs0 xs1 xs2)]
  unfold kernelRun0_B
  dsimp only
  try sl_unfold_words
  rw [View.canon_unit_zero hz2]
  simp only [View.readAt_eq_ld, harg3.read_unread, harg4.read_unread, harg5.read_unread, harg6.read_unread, harg8.read_unread, harg9.read_unread, harg10.read_unread, View.ld_unit_zero (S := S1x1024x64) hz3, View.ld_unit_zero (S := S1x512x1024) hz3, View.ld_unit_zero (S := S1x1024) hz2, View.ld_unit_zero (S := S512x1024) hz2]
  rfl

theorem l_B (c : Dev nD) (i : grid0.Coords) (arg3 : Memref sig .tc .vmem S1x512x1024 .bf16) (harg3 : arg3.IsWhole) (arg4 : Memref sig .tc .vmem S1x512x1024 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1x512x1024 .f32) (harg7 : arg7.IsWhole) (arg8 : Memref sig .tc .vmem S512x1024 .f32) (harg8 : arg8.IsWhole) (arg9 : Memref sig .tc .vmem S1x1024 .f32) (harg9 : arg9.IsWhole) (arg10 : Memref sig .tc .vmem S1x1024 .f32) (harg10 : arg10.IsWhole) (hc0 : ¬cond0_0 i) (hc1 : ¬cond0_1 i)
    (x0 : Vec F S1x512x1024 .bf16) (x1 : Vec F S1x512x1024 .f32) (x2 : Vec F S1x1024x64 .f32) (x3 : Vec F S1x1024x64 .f32) (xs0 : Vec F S512x1024 .f32) (xs1 : Vec F S1x1024 .f32) (xs2 : Vec F S1x1024 .f32) :
    sout0_B_2 c i arg3 harg3 arg4 harg4 arg5 harg5 arg6 harg6 arg7 harg7 arg8 harg8 arg9 harg9 arg10 harg10 hc0 hc1 x0 x1 x2 x3 xs0 xs1 xs2 = newL x2 x3 xs1 xs2 := by
  unfold sout0_B_2
  rw [View.read_writes_eq_canon _ _ _ (scover0_B_2 c i arg3 harg3 arg4 harg4 arg5 harg5 arg6 harg6 arg7 harg7 arg8 harg8 arg9 harg9 arg10 harg10 hc0 hc1 x0 x1 x2 x3 xs0 xs1 xs2)]
  unfold kernelRun0_B
  dsimp only
  try sl_unfold_words
  rw [View.canon_unit_zero hz2]
  simp only [View.readAt_eq_ld, harg3.read_unread, harg4.read_unread, harg5.read_unread, harg6.read_unread, harg8.read_unread, harg9.read_unread, harg10.read_unread, View.ld_unit_zero (S := S1x1024x64) hz3, View.ld_unit_zero (S := S1x512x1024) hz3, View.ld_unit_zero (S := S1x1024) hz2, View.ld_unit_zero (S := S512x1024) hz2]
  rfl

theorem acc_B (c : Dev nD) (i : grid0.Coords) (arg3 : Memref sig .tc .vmem S1x512x1024 .bf16) (harg3 : arg3.IsWhole) (arg4 : Memref sig .tc .vmem S1x512x1024 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1x512x1024 .f32) (harg7 : arg7.IsWhole) (arg8 : Memref sig .tc .vmem S512x1024 .f32) (harg8 : arg8.IsWhole) (arg9 : Memref sig .tc .vmem S1x1024 .f32) (harg9 : arg9.IsWhole) (arg10 : Memref sig .tc .vmem S1x1024 .f32) (harg10 : arg10.IsWhole) (hc0 : ¬cond0_0 i) (hc1 : ¬cond0_1 i)
    (x0 : Vec F S1x512x1024 .bf16) (x1 : Vec F S1x512x1024 .f32) (x2 : Vec F S1x1024x64 .f32) (x3 : Vec F S1x1024x64 .f32) (xs0 : Vec F S512x1024 .f32) (xs1 : Vec F S1x1024 .f32) (xs2 : Vec F S1x1024 .f32) :
    sout0_B_0 c i arg3 harg3 arg4 harg4 arg5 harg5 arg6 harg6 arg7 harg7 arg8 harg8 arg9 harg9 arg10 harg10 hc0 hc1 x0 x1 x2 x3 xs0 xs1 xs2 = newAcc x2 x3 xs1 x0 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 xs0 xs1 xs2)]
  unfold kernelRun0_B
  dsimp only
  try sl_unfold_words
  rw [View.canon_unit_zero hz2]
  simp only [View.readAt_eq_ld, harg3.read_unread, harg4.read_unread, harg5.read_unread, harg6.read_unread, harg8.read_unread, harg9.read_unread, harg10.read_unread, View.ld_unit_zero (S := S1x1024x64) hz3, View.ld_unit_zero (S := S1x512x1024) hz3, View.ld_unit_zero (S := S1x1024) hz2, View.ld_unit_zero (S := S512x1024) hz2]
  rfl

/-! ## The last key tile: the same updates, and the output block from the updated values -/

theorem m_C (c : Dev nD) (i : grid0.Coords) (arg3 : Memref sig .tc .vmem S1x512x1024 .bf16) (harg3 : arg3.IsWhole) (arg4 : Memref sig .tc .vmem S1x512x1024 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1x512x1024 .f32) (harg7 : arg7.IsWhole) (arg8 : Memref sig .tc .vmem S512x1024 .f32) (harg8 : arg8.IsWhole) (arg9 : Memref sig .tc .vmem S1x1024 .f32) (harg9 : arg9.IsWhole) (arg10 : Memref sig .tc .vmem S1x1024 .f32) (harg10 : arg10.IsWhole) (hc0 : ¬cond0_0 i) (hc1 : cond0_1 i)
    (x0 : Vec F S1x512x1024 .bf16) (x1 : Vec F S1x512x1024 .f32) (x2 : Vec F S1x1024x64 .f32) (x3 : Vec F S1x1024x64 .f32) (xs0 : Vec F S512x1024 .f32) (xs1 : Vec F S1x1024 .f32) (xs2 : Vec F S1x1024 .f32) :
    sout0_C_1 c i arg3 harg3 arg4 harg4 arg5 harg5 arg6 harg6 arg7 harg7 arg8 harg8 arg9 harg9 arg10 harg10 hc0 hc1 x0 x1 x2 x3 xs0 xs1 xs2 = newM x2 x3 xs1 := by
  unfold sout0_C_1
  rw [View.read_writes_eq_canon _ _ _ (scover0_C_1 c i arg3 harg3 arg4 harg4 arg5 harg5 arg6 harg6 arg7 harg7 arg8 harg8 arg9 harg9 arg10 harg10 hc0 hc1 x0 x1 x2 x3 xs0 xs1 xs2)]
  unfold kernelRun0_C
  dsimp only
  try sl_unfold_words
  rw [View.canon_unit_zero hz2]
  simp only [View.readAt_eq_ld, harg3.read_unread, harg4.read_unread, harg5.read_unread, harg6.read_unread, harg8.read_unread, harg9.read_unread, harg10.read_unread, View.ld_unit_zero (S := S1x1024x64) hz3, View.ld_unit_zero (S := S1x512x1024) hz3, View.ld_unit_zero (S := S1x1024) hz2, View.ld_unit_zero (S := S512x1024) hz2]
  rfl

theorem l_C (c : Dev nD) (i : grid0.Coords) (arg3 : Memref sig .tc .vmem S1x512x1024 .bf16) (harg3 : arg3.IsWhole) (arg4 : Memref sig .tc .vmem S1x512x1024 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1x512x1024 .f32) (harg7 : arg7.IsWhole) (arg8 : Memref sig .tc .vmem S512x1024 .f32) (harg8 : arg8.IsWhole) (arg9 : Memref sig .tc .vmem S1x1024 .f32) (harg9 : arg9.IsWhole) (arg10 : Memref sig .tc .vmem S1x1024 .f32) (harg10 : arg10.IsWhole) (hc0 : ¬cond0_0 i) (hc1 : cond0_1 i)
    (x0 : Vec F S1x512x1024 .bf16) (x1 : Vec F S1x512x1024 .f32) (x2 : Vec F S1x1024x64 .f32) (x3 : Vec F S1x1024x64 .f32) (xs0 : Vec F S512x1024 .f32) (xs1 : Vec F S1x1024 .f32) (xs2 : Vec F S1x1024 .f32) :
    sout0_C_2 c i arg3 harg3 arg4 harg4 arg5 harg5 arg6 harg6 arg7 harg7 arg8 harg8 arg9 harg9 arg10 harg10 hc0 hc1 x0 x1 x2 x3 xs0 xs1 xs2 = newL x2 x3 xs1 xs2 := by
  unfold sout0_C_2
  rw [View.read_writes_eq_canon _ _ _ (scover0_C_2 c i arg3 harg3 arg4 harg4 arg5 harg5 arg6 harg6 arg7 harg7 arg8 harg8 arg9 harg9 arg10 harg10 hc0 hc1 x0 x1 x2 x3 xs0 xs1 xs2)]
  unfold kernelRun0_C
  dsimp only
  try sl_unfold_words
  rw [View.canon_unit_zero hz2]
  simp only [View.readAt_eq_ld, harg3.read_unread, harg4.read_unread, harg5.read_unread, harg6.read_unread, harg8.read_unread, harg9.read_unread, harg10.read_unread, View.ld_unit_zero (S := S1x1024x64) hz3, View.ld_unit_zero (S := S1x512x1024) hz3, View.ld_unit_zero (S := S1x1024) hz2, View.ld_unit_zero (S := S512x1024) hz2]
  rfl

theorem acc_C (c : Dev nD) (i : grid0.Coords) (arg3 : Memref sig .tc .vmem S1x512x1024 .bf16) (harg3 : arg3.IsWhole) (arg4 : Memref sig .tc .vmem S1x512x1024 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1x512x1024 .f32) (harg7 : arg7.IsWhole) (arg8 : Memref sig .tc .vmem S512x1024 .f32) (harg8 : arg8.IsWhole) (arg9 : Memref sig .tc .vmem S1x1024 .f32) (harg9 : arg9.IsWhole) (arg10 : Memref sig .tc .vmem S1x1024 .f32) (harg10 : arg10.IsWhole) (hc0 : ¬cond0_0 i) (hc1 : cond0_1 i)
    (x0 : Vec F S1x512x1024 .bf16) (x1 : Vec F S1x512x1024 .f32) (x2 : Vec F S1x1024x64 .f32) (x3 : Vec F S1x1024x64 .f32) (xs0 : Vec F S512x1024 .f32) (xs1 : Vec F S1x1024 .f32) (xs2 : Vec F S1x1024 .f32) :
    sout0_C_0 c i arg3 harg3 arg4 harg4 arg5 harg5 arg6 harg6 arg7 harg7 arg8 harg8 arg9 harg9 arg10 harg10 hc0 hc1 x0 x1 x2 x3 xs0 xs1 xs2 = newAcc x2 x3 xs1 x0 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 xs0 xs1 xs2)]
  unfold kernelRun0_C
  dsimp only
  try sl_unfold_words
  rw [View.canon_unit_zero hz2]
  simp only [View.readAt_eq_ld, harg3.read_unread, harg4.read_unread, harg5.read_unread, harg6.read_unread, harg8.read_unread, harg9.read_unread, harg10.read_unread, View.ld_unit_zero (S := S1x1024x64) hz3, View.ld_unit_zero (S := S1x512x1024) hz3, View.ld_unit_zero (S := S1x1024) hz2, View.ld_unit_zero (S := S512x1024) hz2]
  rfl

theorem out_C (c : Dev nD) (i : grid0.Coords) (arg3 : Memref sig .tc .vmem S1x512x1024 .bf16) (harg3 : arg3.IsWhole) (arg4 : Memref sig .tc .vmem S1x512x1024 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1x512x1024 .f32) (harg7 : arg7.IsWhole) (arg8 : Memref sig .tc .vmem S512x1024 .f32) (harg8 : arg8.IsWhole) (arg9 : Memref sig .tc .vmem S1x1024 .f32) (harg9 : arg9.IsWhole) (arg10 : Memref sig .tc .vmem S1x1024 .f32) (harg10 : arg10.IsWhole) (hc0 : ¬cond0_0 i) (hc1 : cond0_1 i)
    (x0 : Vec F S1x512x1024 .bf16) (x1 : Vec F S1x512x1024 .f32) (x2 : Vec F S1x1024x64 .f32) (x3 : Vec F S1x1024x64 .f32) (xs0 : Vec F S512x1024 .f32) (xs1 : Vec F S1x1024 .f32) (xs2 : Vec F S1x1024 .f32) :
    out0_C_4 c i arg3 harg3 arg4 harg4 arg5 harg5 arg6 harg6 arg7 harg7 arg8 harg8 arg9 harg9 arg10 harg10 hc0 hc1 x0 x1 x2 x3 xs0 xs1 xs2 = outBlock (newL x2 x3 xs1 xs2) (newAcc x2 x3 xs1 x0 xs0) x1 := by
  unfold out0_C_4
  rw [View.read_writes_eq_canon _ _ _ (cover0_C_4 c i arg3 harg3 arg4 harg4 arg5 harg5 arg6 harg6 arg7 harg7 arg8 harg8 arg9 harg9 arg10 harg10 hc0 hc1 x0 x1 x2 x3 xs0 xs1 xs2)]
  unfold kernelRun0_C
  dsimp only
  try sl_unfold_words
  rw [View.canon_unit_zero hz3]
  simp only [View.readAt_eq_ld, harg3.read_unread, harg4.read_unread, harg5.read_unread, harg6.read_unread, harg8.read_unread, harg9.read_unread, harg10.read_unread, View.ld_unit_zero (S := S1x1024x64) hz3, View.ld_unit_zero (S := S1x512x1024) hz3, View.ld_unit_zero (S := S1x1024) hz2, View.ld_unit_zero (S := S512x1024) hz2, View.readCov_unit_zero (S := S1x1024) _ hz2, View.readCov_unit_zero (S := S512x1024) _ hz2]
  rfl

/-! ## The first key tile: the previous values are the reset constants -/

theorem m_A (c : Dev nD) (i : grid0.Coords) (arg3 : Memref sig .tc .vmem S1x512x1024 .bf16) (harg3 : arg3.IsWhole) (arg4 : Memref sig .tc .vmem S1x512x1024 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1x512x1024 .f32) (harg7 : arg7.IsWhole) (arg8 : Memref sig .tc .vmem S512x1024 .f32) (harg8 : arg8.IsWhole) (arg9 : Memref sig .tc .vmem S1x1024 .f32) (harg9 : arg9.IsWhole) (arg10 : Memref sig .tc .vmem S1x1024 .f32) (harg10 : arg10.IsWhole) (hc0 : cond0_0 i) (hc1 : ¬cond0_1 i)
    (x0 : Vec F S1x512x1024 .bf16) (x1 : Vec F S1x512x1024 .f32) (x2 : Vec F S1x1024x64 .f32) (x3 : Vec F S1x1024x64 .f32) :
    sout0_A_1 c i arg3 harg3 arg4 harg4 arg5 harg5 arg6 harg6 arg7 harg7 arg8 harg8 arg9 harg9 arg10 harg10 hc0 hc1 x0 x1 x2 x3 = newM x2 x3 k0_pay4 := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2 x3)]
  unfold kernelRun0_A
  dsimp only
  try sl_unfold_words
  rw [View.canon_cons_unit_zero (S := S1x1024) hz2]
  simp only [View.readAt_eq_ld, harg3.read_unread, harg4.read_unread, harg5.read_unread, harg6.read_unread, harg8.read_unread, harg9.read_unread, harg10.read_unread, View.ld_unit_zero (S := S1x1024x64) hz3, View.ld_unit_zero (S := S1x512x1024) hz3, View.ld_unit_zero (S := S1x1024) hz2, View.ld_unit_zero (S := S512x1024) hz2, View.readCov_unit_zero (S := S1x1024) _ hz2, View.readCov_unit_zero (S := S512x1024) _ hz2]
  rfl

theorem l_A (c : Dev nD) (i : grid0.Coords) (arg3 : Memref sig .tc .vmem S1x512x1024 .bf16) (harg3 : arg3.IsWhole) (arg4 : Memref sig .tc .vmem S1x512x1024 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1x512x1024 .f32) (harg7 : arg7.IsWhole) (arg8 : Memref sig .tc .vmem S512x1024 .f32) (harg8 : arg8.IsWhole) (arg9 : Memref sig .tc .vmem S1x1024 .f32) (harg9 : arg9.IsWhole) (arg10 : Memref sig .tc .vmem S1x1024 .f32) (harg10 : arg10.IsWhole) (hc0 : cond0_0 i) (hc1 : ¬cond0_1 i)
    (x0 : Vec F S1x512x1024 .bf16) (x1 : Vec F S1x512x1024 .f32) (x2 : Vec F S1x1024x64 .f32) (x3 : Vec F S1x1024x64 .f32) :
    sout0_A_2 c i arg3 harg3 arg4 harg4 arg5 harg5 arg6 harg6 arg7 harg7 arg8 harg8 arg9 harg9 arg10 harg10 hc0 hc1 x0 x1 x2 x3 = newL x2 x3 k0_pay4 k0_pay5 := by
  unfold sout0_A_2
  rw [View.read_writes_eq_canon _ _ _ (scover0_A_2 c i arg3 harg3 arg4 harg4 arg5 harg5 arg6 harg6 arg7 harg7 arg8 harg8 arg9 harg9 arg10 harg10 hc0 hc1 x0 x1 x2 x3)]
  unfold kernelRun0_A
  dsimp only
  try sl_unfold_words
  rw [View.canon_cons_unit_zero (S := S1x1024) hz2]
  simp only [View.readAt_eq_ld, harg3.read_unread, harg4.read_unread, harg5.read_unread, harg6.read_unread, harg8.read_unread, harg9.read_unread, harg10.read_unread, View.ld_unit_zero (S := S1x1024x64) hz3, View.ld_unit_zero (S := S1x512x1024) hz3, View.ld_unit_zero (S := S1x1024) hz2, View.ld_unit_zero (S := S512x1024) hz2, View.readCov_unit_zero (S := S1x1024) _ hz2, View.readCov_unit_zero (S := S512x1024) _ hz2]
  rfl

theorem acc_A (c : Dev nD) (i : grid0.Coords) (arg3 : Memref sig .tc .vmem S1x512x1024 .bf16) (harg3 : arg3.IsWhole) (arg4 : Memref sig .tc .vmem S1x512x1024 .f32) (harg4 : arg4.IsWhole) (arg5 : Memref sig .tc .vmem S1x1024x64 .f32) (harg5 : arg5.IsWhole) (arg6 : Memref sig .tc .vmem S1x1024x64 .f32) (harg6 : arg6.IsWhole) (arg7 : Memref sig .tc .vmem S1x512x1024 .f32) (harg7 : arg7.IsWhole) (arg8 : Memref sig .tc .vmem S512x1024 .f32) (harg8 : arg8.IsWhole) (arg9 : Memref sig .tc .vmem S1x1024 .f32) (harg9 : arg9.IsWhole) (arg10 : Memref sig .tc .vmem S1x1024 .f32) (harg10 : arg10.IsWhole) (hc0 : cond0_0 i) (hc1 : ¬cond0_1 i)
    (x0 : Vec F S1x512x1024 .bf16) (x1 : Vec F S1x512x1024 .f32) (x2 : Vec F S1x1024x64 .f32) (x3 : Vec F S1x1024x64 .f32) :
    sout0_A_0 c i arg3 harg3 arg4 harg4 arg5 harg5 arg6 harg6 arg7 harg7 arg8 harg8 arg9 harg9 arg10 harg10 hc0 hc1 x0 x1 x2 x3 = newAcc x2 x3 k0_pay4 x0 k0_pay6 := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3)]
  unfold kernelRun0_A
  dsimp only
  try sl_unfold_words
  rw [View.canon_cons_unit_zero (S := S512x1024) hz2]
  simp only [View.readAt_eq_ld, harg3.read_unread, harg4.read_unread, harg5.read_unread, harg6.read_unread, harg8.read_unread, harg9.read_unread, harg10.read_unread, View.ld_unit_zero (S := S1x1024x64) hz3, View.ld_unit_zero (S := S1x512x1024) hz3, View.ld_unit_zero (S := S1x1024) hz2, View.ld_unit_zero (S := S512x1024) hz2, View.readCov_unit_zero (S := S1x1024) _ hz2, View.readCov_unit_zero (S := S512x1024) _ hz2]
  rfl

end Cert.KernelIdeal.Body

end
-- ==== Proof.Cases.lean ====
/-
  What the three carried buffers hold after each grid point, as the body's step functions of the point's blocks:
  at the first key tile of a query tile from the reset constants, at the later key tiles from what the point before
  left; and, at the last key tile, the output block from the buffers just updated.
-/
import proofs.«130554_j28587302322762_2_alg».proof.Proof.Pieces

set_option maxRecDepth 16384

noncomputable section

open Idealize.ShloMosaic Idealize.ShloMosaic.TcCoe Idealize.SL.Sem

namespace Cert.KernelIdeal.Cases

open Cert.KernelIdeal Cert.KernelIdeal.Gen Cert.KernelIdeal.Body

variable {F : FTy → Type} [FloatOps F]
variable (m : (ℓ : Loc nD τ sig) → Buf (Elt F) ℓ)

/-- First key tile: the buffers after the point, from the reset constants. -/
theorem scratch_first (c : Dev nD) (t : Fin cfg0.N) (h0 : t.val % 4 = 0) (h1 : ¬t.val % 4 = 3) :
    (outsAt0 m c t.val t.isLt).2.1 = newAcc (iblk m c 2 t) (iblk m c 3 t) k0_pay4 (iblk m c 0 t) k0_pay6
    ∧ (outsAt0 m c t.val t.isLt).2.2.1 = newM (iblk m c 2 t) (iblk m c 3 t) k0_pay4
    ∧ (outsAt0 m c t.val t.isLt).2.2.2 = newL (iblk m c 2 t) (iblk m c 3 t) k0_pay4 k0_pay5 := by
  rw [outsAt0_A m c t h0 h1]
  dsimp only
  exact ⟨acc_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t),
    m_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t),
    l_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)⟩

/-- A middle key tile: the buffers after the point, from what the point before left. -/
theorem scratch_middle (c : Dev nD) (t : Fin cfg0.N) (h0 : ¬t.val % 4 = 0) (h1 : ¬t.val % 4 = 3) :
    (outsAt0 m c t.val t.isLt).2.1 = newAcc (iblk m c 2 t) (iblk m c 3 t) (outsAt0 m c (t.val - 1) (Nat.lt_of_le_of_lt (Nat.sub_le _ _) t.isLt)).2.2.1 (iblk m c 0 t) (outsAt0 m c (t.val - 1) (Nat.lt_of_le_of_lt (Nat.sub_le _ _) t.isLt)).2.1
    ∧ (outsAt0 m c t.val t.isLt).2.2.1 = newM (iblk m c 2 t) (iblk m c 3 t) (outsAt0 m c (t.val - 1) (Nat.lt_of_le_of_lt (Nat.sub_le _ _) t.isLt)).2.2.1
    ∧ (outsAt0 m c t.val t.isLt).2.2.2 = newL (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2 := by
  rw [outsAt0_B m c t h0 h1]
  dsimp only
  exact ⟨acc_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    m_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    l_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2⟩

/-- The last key tile: the same updates, and the output block from the updated buffers. -/
theorem scratch_last (c : Dev nD) (t : Fin cfg0.N) (h0 : ¬t.val % 4 = 0) (h1 : t.val % 4 = 3) :
    (outsAt0 m c t.val t.isLt).2.1 = newAcc (iblk m c 2 t) (iblk m c 3 t) (outsAt0 m c (t.val - 1) (Nat.lt_of_le_of_lt (Nat.sub_le _ _) t.isLt)).2.2.1 (iblk m c 0 t) (outsAt0 m c (t.val - 1) (Nat.lt_of_le_of_lt (Nat.sub_le _ _) t.isLt)).2.1
    ∧ (outsAt0 m c t.val t.isLt).2.2.1 = newM (iblk m c 2 t) (iblk m c 3 t) (outsAt0 m c (t.val - 1) (Nat.lt_of_le_of_lt (Nat.sub_le _ _) t.isLt)).2.2.1
    ∧ (outsAt0 m c t.val t.isLt).2.2.2 = newL (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2
    ∧ (outsAt0 m c t.val t.isLt).1 = outBlock (outsAt0 m c t.val t.isLt).2.2.2 (outsAt0 m c t.val t.isLt).2.1 (iblk m c 1 t) := by
  rw [outsAt0_C m c t h0 h1]
  dsimp only
  refine ⟨acc_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    m_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    l_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, ?_⟩
  rw [l_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, acc_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
  exact out_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

/-- A later key tile, with the point written `n + 1`: the buffers after it, from what point `n` left. -/
theorem scratch_succ (c : Dev nD) (n : ℕ) (h : n + 1 < cfg0.N) (h0 : ¬(n + 1) % 4 = 0) :
    (outsAt0 m c (n + 1) h).2.1
        = newAcc (iblk m c 2 ⟨n + 1, h⟩) (iblk m c 3 ⟨n + 1, h⟩) (outsAt0 m c n (Nat.lt_of_succ_lt h)).2.2.1 (iblk m c 0 ⟨n + 1, h⟩) (outsAt0 m c n (Nat.lt_of_succ_lt h)).2.1
    ∧ (outsAt0 m c (n + 1) h).2.2.1 = newM (iblk m c 2 ⟨n + 1, h⟩) (iblk m c 3 ⟨n + 1, h⟩) (outsAt0 m c n (Nat.lt_of_succ_lt h)).2.2.1
    ∧ (outsAt0 m c (n + 1) h).2.2.2
        = newL (iblk m c 2 ⟨n + 1, h⟩) (iblk m c 3 ⟨n + 1, h⟩) (outsAt0 m c n (Nat.lt_of_succ_lt h)).2.2.1 (outsAt0 m c n (Nat.lt_of_succ_lt h)).2.2.2 := by
  by_cases h1 : (n + 1) % 4 = 3
  · obtain ⟨a, b, d, -⟩ := scratch_last m c ⟨n + 1, h⟩ h0 h1
    exact ⟨a, b, d⟩
  · exact scratch_middle m c ⟨n + 1, h⟩ h0 h1

/-- First key tile, with the point written as a number. -/
theorem scratch_zero (c : Dev nD) (n : ℕ) (h : n < cfg0.N) (h0 : n % 4 = 0) :
    (outsAt0 m c n h).2.1 = newAcc (iblk m c 2 ⟨n, h⟩) (iblk m c 3 ⟨n, h⟩) k0_pay4 (iblk m c 0 ⟨n, h⟩) k0_pay6
    ∧ (outsAt0 m c n h).2.2.1 = newM (iblk m c 2 ⟨n, h⟩) (iblk m c 3 ⟨n, h⟩) k0_pay4
    ∧ (outsAt0 m c n h).2.2.2 = newL (iblk m c 2 ⟨n, h⟩) (iblk m c 3 ⟨n, h⟩) k0_pay4 k0_pay5 :=
  scratch_first m c ⟨n, h⟩ h0 (by show ¬n % 4 = 3; omega)

/-- The output block at the last key tile, with the point written as a number. -/
theorem out_last (c : Dev nD) (n : ℕ) (h : n < cfg0.N) (h3 : n % 4 = 3) :
    (outsAt0 m c n h).1 = outBlock (outsAt0 m c n h).2.2.2 (outsAt0 m c n h).2.1 (iblk m c 1 ⟨n, h⟩) :=
  (scratch_last m c ⟨n, h⟩ (by show ¬n % 4 = 0; omega) h3).2.2.2

end Cert.KernelIdeal.Cases

end
-- ==== Proof.OnlineSoftmax.lean ====
/-
  The algebra of a streamed softmax, over the reals.

  A softmax-weighted average  (∑ⱼ aⱼ e^{fⱼ}) / (∑ⱼ e^{fⱼ})  does not change when every exponent is shifted by
  the same real number.  A streaming evaluation keeps, for the keys seen so far, a shift `μ` and the two sums
  `∑ e^{fⱼ - μ}` and `∑ aⱼ e^{fⱼ - μ}`; when a new group of keys arrives with a new shift `μ'`, the old sums are
  multiplied by `e^{μ - μ'}` and the new keys' terms are added.  The lemmas below say that this keeps the two sums
  at their closed forms for any choice of the shifts, and that the quotient at the end is the softmax average
  whatever shift was used.  Nothing here asks the shift to be the maximum of the exponents.

  The keys come in four groups of equal size, indexed `Fin 4 × κ`; `upTo K` is the set of keys in groups `0 … K`.
-/
import Mathlib

noncomputable section

namespace OnlineSoftmax

open Finset

variable {ι : Type*}

/-- Changing the shift of a sum of exponentials from `μ` to `μ'` multiplies it by `e^{μ - μ'}`. -/
theorem rescale_sum (s : Finset ι) (f : ι → ℝ) (μ μ' : ℝ) :
    Real.exp (μ - μ') * ∑ j ∈ s, Real.exp (f j - μ) = ∑ j ∈ s, Real.exp (f j - μ') := by
  rw [Finset.mul_sum]
  refine Finset.sum_congr rfl fun j _ => ?_
  rw [← Real.exp_add]
  congr 1
  ring

/-- The same for a weighted sum of exponentials. -/
theorem rescale_wsum (s : Finset ι) (a f : ι → ℝ) (μ μ' : ℝ) :
    Real.exp (μ - μ') * ∑ j ∈ s, a j * Real.exp (f j - μ) = ∑ j ∈ s, a j * Real.exp (f j - μ') := by
  rw [Finset.mul_sum]
  refine Finset.sum_congr rfl fun j _ => ?_
  rw [mul_left_comm, ← Real.exp_add]
  congr 2
  ring

/-- One streaming step on the sum of exponentials: the old keys `s` rescaled, the new keys `t` added. -/
theorem step_sum [DecidableEq ι] (s t : Finset ι) (h : Disjoint s t) (f : ι → ℝ) (μ μ' : ℝ) :
    Real.exp (μ - μ') * (∑ j ∈ s, Real.exp (f j - μ)) + ∑ j ∈ t, Real.exp (f j - μ')
      = ∑ j ∈ s ∪ t, Real.exp (f j - μ') := by
  rw [rescale_sum, Finset.sum_union h]

/-- One streaming step on the weighted sum. -/
theorem step_wsum [DecidableEq ι] (s t : Finset ι) (h : Disjoint s t) (a f : ι → ℝ) (μ μ' : ℝ) :
    Real.exp (μ - μ') * (∑ j ∈ s, a j * Real.exp (f j - μ)) + ∑ j ∈ t, a j * Real.exp (f j - μ')
      = ∑ j ∈ s ∪ t, a j * Real.exp (f j - μ') := by
  rw [rescale_wsum, Finset.sum_union h]

/-- The softmax average does not depend on the shift: the streamed quotient at shift `μ` is the average of the
    `aₖ` with the normalised weights computed at any other shift `μ'`. -/
theorem quotient_eq (s : Finset ι) (hs : s.Nonempty) (a f : ι → ℝ) (μ μ' : ℝ) :
    (∑ j ∈ s, a j * Real.exp (f j - μ)) * (1 / ∑ j ∈ s, Real.exp (f j - μ))
      = ∑ k ∈ s, a k * (Real.exp (f k - μ') / ∑ j ∈ s, Real.exp (f j - μ')) := by
  have hS' : 0 < ∑ j ∈ s, Real.exp (f j - μ') := Finset.sum_pos (fun j _ => Real.exp_pos _) hs
  have hc : Real.exp (μ' - μ) ≠ 0 := (Real.exp_pos _).ne'
  rw [← rescale_wsum s a f μ' μ, ← rescale_sum s f μ' μ]
  have hr : ∑ k ∈ s, a k * (Real.exp (f k - μ') / ∑ j ∈ s, Real.exp (f j - μ'))
      = (∑ k ∈ s, a k * Real.exp (f k - μ')) / ∑ j ∈ s, Real.exp (f j - μ') := by
    rw [Finset.sum_div]
    exact Finset.sum_congr rfl fun k _ => by rw [mul_div_assoc]
  rw [hr]
  field_simp

/-! ## Four groups of keys -/

variable {κ : Type*} [Fintype κ] [DecidableEq κ]

/-- The keys of groups `0 … K`. -/
def upTo (K : ℕ) : Finset (Fin 4 × κ) := Finset.univ.filter fun p => p.1.val ≤ K

theorem mem_upTo (K : ℕ) (p : Fin 4 × κ) : p ∈ upTo (κ := κ) K ↔ p.1.val ≤ K := by
  simp [upTo]

/-- Group `g` alone. -/
def group (g : Fin 4) : Finset (Fin 4 × κ) := ({g} : Finset (Fin 4)) ×ˢ (Finset.univ : Finset κ)

theorem sum_group {M : Type*} [AddCommMonoid M] (g : Fin 4) (h : Fin 4 × κ → M) :
    ∑ p ∈ group (κ := κ) g, h p = ∑ j, h (g, j) := by
  rw [group, Finset.sum_product, Finset.sum_singleton]

theorem upTo_zero : upTo (κ := κ) 0 = group 0 := by
  ext p
  simp only [mem_upTo, group, Finset.mem_product, Finset.mem_singleton, Finset.mem_univ, and_true]
  constructor
  · intro h; exact Fin.ext (by simpa using h)
  · intro h; rw [h]; simp

theorem upTo_succ (K : ℕ) (hK : K + 1 < 4) :
    upTo (κ := κ) (K + 1) = upTo K ∪ group ⟨K + 1, hK⟩ := by
  ext p
  simp only [mem_upTo, group, Finset.mem_union, Finset.mem_product, Finset.mem_singleton, Finset.mem_univ, and_true]
  constructor
  · intro h
    rcases Nat.lt_or_ge p.1.val (K + 1) with h' | h'
    · left; omega
    · right; exact Fin.ext (by show p.1.val = K + 1; omega)
  · rintro (h | h)
    · omega
    · rw [h]

theorem disjoint_upTo_group (K : ℕ) (hK : K + 1 < 4) :
    Disjoint (upTo (κ := κ) K) (group ⟨K + 1, hK⟩) := by
  rw [Finset.disjoint_left]
  intro p hp hq
  rw [mem_upTo] at hp
  simp only [group, Finset.mem_product, Finset.mem_singleton, Finset.mem_univ, and_true] at hq
  rw [hq] at hp
  simp at hp

theorem upTo_three : upTo (κ := κ) 3 = Finset.univ := by
  ext p
  simp only [mem_upTo, Finset.mem_univ, iff_true]
  have := p.1.isLt
  omega

theorem upTo_nonempty [Nonempty κ] (K : ℕ) : (upTo (κ := κ) K).Nonempty :=
  ⟨(0, Classical.arbitrary κ), by rw [mem_upTo]; simp⟩

end OnlineSoftmax

end
-- ==== Proof.Spec.lean ====
/-
  The result, as one function of the three argument arrays.

  For batch `b`, channel `ch` and query position `Q` the result is the softmax-weighted average over the 4096 key
  positions `J` of `a[b, ch, J]`, the weight of `J` proportional to `e^{score}` with
  `score = Σ_d c[b, J, d] · b[b, Q, d]`, plus the residual `a[b, ch, Q]`.
  The average is written with the weights un-normalised and one division at the end, and with no shift of the
  exponents: OnlineSoftmax.lean shows that every shifted or streamed way of computing it gives this value.
  The arrays' entries enter through their real parts; the two programs are shown to compute this function when every
  entry is a real number.

  A key position `J < 4096` is also addressed as (group, offset) with `J = 1024 · group + offset`.
-/
import Idealize.ShloMosaic.PureOps.Ideal
import Idealize.ShloMosaic.Lib.ValueIdx
import proofs.«130554_j28587302322762_2_alg».proof.Proof.OnlineSoftmax

noncomputable section

namespace Attn

open Idealize.ShloMosaic Idealize.ShloMosaic.ValueIdx

abbrev SA : Shape := ⟨3, ![4, 512, 4096]⟩
abbrev SB : Shape := ⟨3, ![4, 4096, 64]⟩

/-- Position `1024 · g + o` of the 4096. -/
def pos (g : Fin 4) (o : Fin 1024) : Fin 4096 := ⟨g.val * 1024 + o.val, by have := g.isLt; have := o.isLt; omega⟩

/-- (group, offset) ↔ position. -/
def posEquiv : Fin 4 × Fin 1024 ≃ Fin 4096 where
  toFun p := pos p.1 p.2
  invFun J := (⟨J.val / 1024, by have := J.isLt; omega⟩, ⟨J.val % 1024, Nat.mod_lt _ (by decide)⟩)
  left_inv p := by
    have h1 := p.1.isLt
    have h2 := p.2.isLt
    refine Prod.ext (Fin.ext ?_) (Fin.ext ?_)
    · show (p.1.val * 1024 + p.2.val) / 1024 = p.1.val; omega
    · show (p.1.val * 1024 + p.2.val) % 1024 = p.2.val; omega
  right_inv J := Fin.ext (by show J.val / 1024 * 1024 + J.val % 1024 = J.val; omega)

/-- The score of key position `J` for query position `Q` in batch `b`. -/
def score (Br Cr : SB.Idx → ℝ) (b : Fin 4) (Q J : Fin 4096) : ℝ :=
  ∑ d : Fin 64, Cr (ix3 b J d) * Br (ix3 b Q d)

/-- The softmax-weighted average of channel `ch` over the key positions. -/
def avg (Ar : SA.Idx → ℝ) (Br Cr : SB.Idx → ℝ) (b : Fin 4) (ch : Fin 512) (Q : Fin 4096) : ℝ :=
  (∑ J : Fin 4096, Ar (ix3 b ch J) * Real.exp (score Br Cr b Q J))
    * (1 / ∑ J : Fin 4096, Real.exp (score Br Cr b Q J))

/-- The result array. -/
def G (A : SA.Idx → EReal) (B C : SB.Idx → EReal) : SA.Idx → EReal := fun i =>
  ((avg (fun j => (A j).toReal) (fun j => (B j).toReal) (fun j => (C j).toReal) (i 0) (i 1) (i 2) : ℝ) : EReal) + A i

/-- The streamed form over the four groups of keys, at any shift, is the average. -/
theorem avg_of_groups (Ar : SA.Idx → ℝ) (Br Cr : SB.Idx → ℝ) (b : Fin 4) (ch : Fin 512) (Q : Fin 4096) (μ : ℝ) :
    (∑ p : Fin 4 × Fin 1024, Ar (ix3 b ch (pos p.1 p.2)) * Real.exp (score Br Cr b Q (pos p.1 p.2) - μ))
      * (1 / ∑ p : Fin 4 × Fin 1024, Real.exp (score Br Cr b Q (pos p.1 p.2) - μ))
      = avg Ar Br Cr b ch Q := by
  have h := OnlineSoftmax.quotient_eq (Finset.univ : Finset (Fin 4 × Fin 1024)) Finset.univ_nonempty
    (fun p => Ar (ix3 b ch (pos p.1 p.2))) (fun p => score Br Cr b Q (pos p.1 p.2)) μ 0
  have h0 := OnlineSoftmax.quotient_eq (Finset.univ : Finset (Fin 4 × Fin 1024)) Finset.univ_nonempty
    (fun p => Ar (ix3 b ch (pos p.1 p.2))) (fun p => score Br Cr b Q (pos p.1 p.2)) 0 0
  rw [h, ← h0]
  simp only [sub_zero]
  unfold avg
  rw [← Equiv.sum_comp posEquiv (fun J => Ar (ix3 b ch J) * Real.exp (score Br Cr b Q J)),
    ← Equiv.sum_comp posEquiv (fun J => Real.exp (score Br Cr b Q J))]
  rfl

/-- The normalised form over the 4096 key positions, at any shift, is the average. -/
theorem avg_of_normalised (Ar : SA.Idx → ℝ) (Br Cr : SB.Idx → ℝ) (b : Fin 4) (ch : Fin 512) (Q : Fin 4096) (μ : ℝ) :
    ∑ J : Fin 4096, Ar (ix3 b ch J) * (Real.exp (score Br Cr b Q J - μ) / ∑ J' : Fin 4096, Real.exp (score Br Cr b Q J' - μ))
      = avg Ar Br Cr b ch Q := by
  have h := OnlineSoftmax.quotient_eq (Finset.univ : Finset (Fin 4096)) Finset.univ_nonempty
    (fun J => Ar (ix3 b ch J)) (fun J => score Br Cr b Q J) 0 μ
  rw [← h]
  simp only [sub_zero]
  rfl

end Attn

end
-- ==== Proof.Blocks.lean ====
/-
  The blocks the four input windows hand the body at a grid point, read at coordinates.

  The grid is (batch, query tile, key tile) = (t / 16, (t / 4) % 4, t % 4) for the linear point `t < 64`.
  The query block is rows `1024 · (query tile) + …` of `b`, the key block rows `1024 · (key tile) + …` of `c`,
  the value block columns `1024 · (key tile) + …` of `a` (through a change of format done before the launch, which
  is the identity on exact values), the residual block columns `1024 · (query tile) + …` of `a`.
-/
import proofs.«130554_j28587302322762_2_alg».proof.Proof.Gen.KernelIdeal.Frame
import proofs.«130554_j28587302322762_2_alg».proof.Proof.Spec
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen Attn

/-- Batch, query tile and key tile of a grid point. -/
def batchOf (t : Fin cfg0.N) : Fin 4 := ⟨t.val / 16, by have := lt_of_lt_of_eq t.isLt (show cfg0.N = 64 from N_0); omega⟩
def qTileOf (t : Fin cfg0.N) : Fin 4 := ⟨t.val / 4 % 4, Nat.mod_lt _ (by decide)⟩
def kTileOf (t : Fin cfg0.N) : Fin 4 := ⟨t.val % 4, Nat.mod_lt _ (by decide)⟩

/-- The printed index maps, decided over the grid. -/
theorem idx0 : ∀ t : Fin cfg0.N, win0_0.index t (0 : Fin 3) = t.val / 16 ∧ win0_0.index t (1 : Fin 3) = 0 ∧ win0_0.index t (2 : Fin 3) = t.val % 4 :=
  (by decide +kernel : ∀ t : Fin grid0.N, _)
theorem idx1 : ∀ t : Fin cfg0.N, win0_1.index t (0 : Fin 3) = t.val / 16 ∧ win0_1.index t (1 : Fin 3) = 0 ∧ win0_1.index t (2 : Fin 3) = t.val / 4 % 4 :=
  (by decide +kernel : ∀ t : Fin grid0.N, _)
theorem idx2 : ∀ t : Fin cfg0.N, win0_2.index t (0 : Fin 3) = t.val / 16 ∧ win0_2.index t (1 : Fin 3) = t.val / 4 % 4 ∧ win0_2.index t (2 : Fin 3) = 0 :=
  (by decide +kernel : ∀ t : Fin grid0.N, _)
theorem idx3 : ∀ t : Fin cfg0.N, win0_3.index t (0 : Fin 3) = t.val / 16 ∧ win0_3.index t (1 : Fin 3) = t.val % 4 ∧ win0_3.index t (2 : Fin 3) = 0 :=
  (by decide +kernel : ∀ t : Fin grid0.N, _)
theorem idx4 : ∀ t : Fin cfg0.N, win0_4.index t (0 : Fin 3) = t.val / 16 ∧ win0_4.index t (1 : Fin 3) = 0 ∧ win0_4.index t (2 : Fin 3) = t.val / 4 % 4 :=
  (by decide +kernel : ∀ t : Fin grid0.N, _)

variable (m : (ℓ : Loc nD τ sig) → Buf (Elt Ideal) ℓ)

/-- The query block: row `qq` of the tile is row `1024 · (query tile) + qq` of `b`. -/
theorem qBlock (c : Dev nD) (t : Fin cfg0.N) (qq : Fin 1024) (d : Fin 64) :
    (iblk m c 2 t : Vec Ideal S1x1024x64 .f32) (ix3 0 qq d)
      = m ((c : Thread nD τ).loc main_arg1) (ix3 (batchOf t) (pos (qTileOf t) qq) d) := by
  obtain ⟨e0, e1, e2⟩ := idx2 t
  unfold iblk
  rw [View.read_apply]
  show V m c main_arg1 _ = _
  rw [V_main_arg1]
  refine congrArg _ (funext fun a => Fin.ext ?_)
  match a with
  | ⟨0, _⟩ => show win0_2.index t (0 : Fin 3) * 1 + 1 * 0 = t.val / 16; omega
  | ⟨1, _⟩ => show win0_2.index t (1 : Fin 3) * 1024 + 1 * qq.val = t.val / 4 % 4 * 1024 + qq.val; omega
  | ⟨2, _⟩ => show win0_2.index t (2 : Fin 3) * 64 + 1 * d.val = d.val; omega

/-- The key block: row `jj` of the tile is row `1024 · (key tile) + jj` of `c`. -/
theorem kBlock (c : Dev nD) (t : Fin cfg0.N) (jj : Fin 1024) (d : Fin 64) :
    (iblk m c 3 t : Vec Ideal S1x1024x64 .f32) (ix3 0 jj d)
      = m ((c : Thread nD τ).loc main_arg2) (ix3 (batchOf t) (pos (kTileOf t) jj) d) := by
  obtain ⟨e0, e1, e2⟩ := idx3 t
  unfold iblk
  rw [View.read_apply]
  show V m c main_arg2 _ = _
  rw [V_main_arg2]
  refine congrArg _ (funext fun a => Fin.ext ?_)
  match a with
  | ⟨0, _⟩ => show win0_3.index t (0 : Fin 3) * 1 + 1 * 0 = t.val / 16; omega
  | ⟨1, _⟩ => show win0_3.index t (1 : Fin 3) * 1024 + 1 * jj.val = t.val % 4 * 1024 + jj.val; omega
  | ⟨2, _⟩ => show win0_3.index t (2 : Fin 3) * 64 + 1 * d.val = d.val; omega

/-- The residual block: column `qq` of the tile is column `1024 · (query tile) + qq` of `a`. -/
theorem resBlock (c : Dev nD) (t : Fin cfg0.N) (ch : Fin 512) (qq : Fin 1024) :
    (iblk m c 1 t : Vec Ideal S1x512x1024 .f32) (ix3 0 ch qq)
      = m ((c : Thread nD τ).loc main_arg0) (ix3 (batchOf t) ch (pos (qTileOf t) qq)) := by
  obtain ⟨e0, e1, e2⟩ := idx1 t
  unfold iblk
  rw [View.read_apply]
  show V m c main_arg0 _ = _
  rw [V_main_arg0]
  refine congrArg _ (funext fun a => Fin.ext ?_)
  match a with
  | ⟨0, _⟩ => show win0_1.index t (0 : Fin 3) * 1 + 1 * 0 = t.val / 16; omega
  | ⟨1, _⟩ => show win0_1.index t (1 : Fin 3) * 512 + 1 * ch.val = ch.val; omega
  | ⟨2, _⟩ => show win0_1.index t (2 : Fin 3) * 1024 + 1 * qq.val = t.val / 4 % 4 * 1024 + qq.val; omega

/-- The array the value window stages is `a` after the change of format made before the launch. -/
theorem valueArray (c : Dev nD) (i : S4x512x4096.Idx) :
    (V m c main_v0 : S4x512x4096.Idx → EReal) i = (m ((c : Thread nD τ).loc main_arg0) : S4x512x4096.Idx → EReal) i := by
  have e : (V m c main_v0 : S4x512x4096.Idx → EReal)
      = (truncf (F := Ideal) (s := S4x512x4096) (φ := .f32) .bf16 (m ((c : Thread nD τ).loc main_arg0)) Facts₀.bitsLt_bf16_f32 : S4x512x4096.Idx → EReal) := by
    dsimp only [Gen.V, Gen.hostOps0]
    after_results
  rw [e]
  rfl

/-- The value block: column `jj` of the tile is column `1024 · (key tile) + jj` of `a`. -/
theorem vBlock (c : Dev nD) (t : Fin cfg0.N) (ch : Fin 512) (jj : Fin 1024) :
    (iblk m c 0 t : Vec Ideal S1x512x1024 .bf16) (ix3 0 ch jj)
      = m ((c : Thread nD τ).loc main_arg0) (ix3 (batchOf t) ch (pos (kTileOf t) jj)) := by
  obtain ⟨e0, e1, e2⟩ := idx0 t
  unfold iblk
  rw [View.read_apply]
  refine (valueArray m c _).trans ?_
  refine congrArg _ (funext fun a => Fin.ext ?_)
  match a with
  | ⟨0, _⟩ => show win0_0.index t (0 : Fin 3) * 1 + 1 * 0 = t.val / 16; omega
  | ⟨1, _⟩ => show win0_0.index t (1 : Fin 3) * 512 + 1 * ch.val = ch.val; omega
  | ⟨2, _⟩ => show win0_0.index t (2 : Fin 3) * 1024 + 1 * jj.val = t.val % 4 * 1024 + jj.val; omega

end Cert.KernelIdeal.Blocks

end
-- ==== Proof.BodyAt.lean ====
import proofs.«130554_j28587302322762_2_alg».proof.Proof.Gen.KernelIdeal.Skeleton
import proofs.«130554_j28587302322762_2_alg».proof.Proof.Gen.KernelIdeal
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.ValueIdx

/-
  The body's arithmetic, read entry by entry over the exact extended reals: the score matrix product, the lane
  maximum and lane sum over the key rows, the exponentials, the weighted matrix product, the rescaling, and the
  final quotient — each at explicit coordinates (row, lane) or (channel, lane).
-/
namespace Cert.KernelIdeal.BodyAt

open Cert.KernelIdeal Cert.KernelIdeal.Gen
/-! the score matmul's operand indices -/
theorem s_lhs0 (i : S1024x1024.Idx) (q : dot_S1024x64_S64x1024_S1024x1024_1_0_0_1_n_n.contr.Idx) : (dot_S1024x64_S64x1024_S1024x1024_1_0_0_1_n_n.lhsIdx i q 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
theorem s_lhs1 (i : S1024x1024.Idx) (q : dot_S1024x64_S64x1024_S1024x1024_1_0_0_1_n_n.contr.Idx) : (dot_S1024x64_S64x1024_S1024x1024_1_0_0_1_n_n.lhsIdx i q 1).val = (q ⟨0, by decide⟩).val :=
  dot_S1024x64_S64x1024_S1024x1024_1_0_0_1_n_n.lhsIdx_val_of_single rfl i q
theorem s_rhs0 (i : S1024x1024.Idx) (q : dot_S1024x64_S64x1024_S1024x1024_1_0_0_1_n_n.contr.Idx) : (dot_S1024x64_S64x1024_S1024x1024_1_0_0_1_n_n.rhsIdx i q 0).val = (q ⟨0, by decide⟩).val :=
  dot_S1024x64_S64x1024_S1024x1024_1_0_0_1_n_n.rhsIdx_val_of_single rfl i q
theorem s_rhs1 (i : S1024x1024.Idx) (q : dot_S1024x64_S64x1024_S1024x1024_1_0_0_1_n_n.contr.Idx) : (dot_S1024x64_S64x1024_S1024x1024_1_0_0_1_n_n.rhsIdx i q 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

/-- A score: key row `jj` against query row `qq`, summed over the 64 features. -/
theorem score_apply (q k : Vec Ideal S1x1024x64 .f32) (jj qq : Fin 1024) :
    k0_pay7 (F := Ideal) q k (ix2 jj qq) = ∑ d : Fin 64, k (ix3 0 jj d) * q (ix3 0 qq d) := by
  unfold k0_pay7
  simp only [matmul]
  rw [Ideal.matmul_constant_zero_apply, ← Equiv.sum_comp (contrEquiv1 dot_S1024x64_S64x1024_S1024x1024_1_0_0_1_n_n 64 rfl rfl).symm]
  refine Finset.sum_congr rfl fun d _ => ?_
  have hd := contrEquiv1_symm_val dot_S1024x64_S64x1024_S1024x1024_1_0_0_1_n_n 64 rfl rfl d
  congr 1
  · refine shapeCast_apply k _ _ (ix3 0 jj d) ?_
    rw [Shape.rowMajor_val_three, Shape.rowMajor_val_two, s_lhs0, s_lhs1, hd]
    show (0 * 1024 + jj.val) * 64 + d.val = jj.val * 64 + d.val
    omega
  · refine (transpose_apply [1, 0] _ _ _ (ix2 qq d) ?_).trans (shapeCast_apply q _ _ (ix3 0 qq d) ?_)
    · intro b
      match b with
      | ⟨0, _⟩ => exact ((s_rhs0 _ _).trans hd).symm
      | ⟨1, _⟩ => exact (s_rhs1 (ix2 jj qq) _).symm
    · rw [Shape.rowMajor_val_three, Shape.rowMajor_val_two]
      show (0 * 1024 + qq.val) * 64 + d.val = qq.val * 64 + d.val
      omega

/-- The maximum over the rows of a 1024 × 1024 vector, at lane `qq`, as a running maximum over the row index. -/
theorem laneMax (src : FVec Ideal S1024x1024 .f32) (qq : Fin 1024) :
    multiReduction .maximumf [0] S1024 src 0xFF800000#32 Facts₀.reduces_S1024x1024_S1024 (.inl rfl) rfl (ix1 qq)
      = (Finset.univ : Finset (Fin 1024)).fold max (Ideal.ofBits .f32 0xFF800000#32) (fun jj => src (ix2 jj qq)) := by
  refine (Ideal.multiReduction_maximumf_single src 0xFF800000#32 Facts₀.reduces_S1024x1024_S1024 (.inl rfl) rfl (ix1 qq)).trans ?_
  congr 1
  funext jj
  show src (Facts₀.reduces_S1024x1024_S1024.lift (ix1 qq) jj) = src (ix2 jj qq)
  refine congrArg src (funext fun a => Fin.ext ?_)
  match a with
  | ⟨0, _⟩ => rfl
  | ⟨1, _⟩ => rfl

/-- The sum over the rows of a 1024 × 1024 vector, at lane `qq`. -/
theorem laneSum (src : FVec Ideal S1024x1024 .f32) (qq : Fin 1024) :
    multiReduction .add [0] S1024 src 0x00000000#32 Facts₀.reduces_S1024x1024_S1024 (.inl rfl) rfl (ix1 qq)
      = ∑ jj : Fin 1024, src (ix2 jj qq) := by
  refine (Ideal.multiReduction_add_single src 0x00000000#32 Facts₀.reduces_S1024x1024_S1024 (.inl rfl) rfl (ix1 qq)).trans ?_
  refine Finset.sum_congr rfl fun jj _ => ?_
  refine congrArg src (funext fun a => Fin.ext ?_)
  match a with
  | ⟨0, _⟩ => rfl
  | ⟨1, _⟩ => rfl

/-- A lane vector viewed as one row reads the lane. -/
theorem rowOfLane (v : FVec Ideal S1024 .f32) (qq : Fin 1024) :
    shapeCast S1x1024 v Facts₀.shapeCasts_S1024_S1x1024 (ix2 0 qq) = v (ix1 qq) :=
  shapeCast_apply v Facts₀.shapeCasts_S1024_S1x1024 (ix2 0 qq) (ix1 qq) (by
    rw [Shape.rowMajor_val_one, Shape.rowMajor_val_two]
    show qq.val = 0 * 1024 + qq.val
    omega)

/-- One row spread over 1024 rows reads the row at every row index. -/
theorem spreadRows (v : FVec Ideal S1x1024 .f32) (jj qq : Fin 1024) :
    broadcastTo S1024x1024 v Facts₀.broadcasts_S1x1024_S1024x1024 (ix2 jj qq) = v (ix2 0 qq) :=
  broadcastTo_apply v Facts₀.broadcasts_S1x1024_S1024x1024 (ix2 jj qq) (ix2 0 qq) (fun a => by
    match a with
    | ⟨0, _⟩ => rfl
    | ⟨1, _⟩ => rfl)

/-- One row spread over 512 rows reads the row at every row index. -/
theorem spreadChannels (v : FVec Ideal S1x1024 .f32) (ch : Fin 512) (qq : Fin 1024) :
    broadcastTo S512x1024 v Facts₀.broadcasts_S1x1024_S512x1024 (ix2 ch qq) = v (ix2 0 qq) :=
  broadcastTo_apply v Facts₀.broadcasts_S1x1024_S512x1024 (ix2 ch qq) (ix2 0 qq) (fun a => by
    match a with
    | ⟨0, _⟩ => rfl
    | ⟨1, _⟩ => rfl)

/-- The exponential of a vector, entry by entry. -/
theorem expv_apply {s : Shape} {φ : FTy} (a : FVec Ideal s φ) (i : s.Idx) : exp a i = Ideal.exp (a i) := rfl

/-- The new shift at lane `qq`: the larger of the previous shift and the largest score of the tile's keys. -/
theorem pay8_apply (q k : Vec Ideal S1x1024x64 .f32) (mp : Vec Ideal S1x1024 .f32) (qq : Fin 1024) :
    k0_pay8 (F := Ideal) q k mp (ix2 0 qq)
      = max (mp (ix2 0 qq)) ((Finset.univ : Finset (Fin 1024)).fold max (Ideal.ofBits .f32 0xFF800000#32)
          (fun jj => k0_pay7 (F := Ideal) q k (ix2 jj qq))) := by
  unfold k0_pay8
  try dsimp only
  rw [maximumf_apply, rowOfLane, laneMax]

/-- The weight of key `jj` for query `qq`: `e^{score - new shift}`. -/
theorem pay9_apply (q k : Vec Ideal S1x1024x64 .f32) (mp : Vec Ideal S1x1024 .f32) (jj qq : Fin 1024) :
    k0_pay9 (F := Ideal) q k mp (ix2 jj qq)
      = Ideal.exp (k0_pay7 (F := Ideal) q k (ix2 jj qq) - k0_pay8 (F := Ideal) q k mp (ix2 0 qq)) := by
  unfold k0_pay9
  try dsimp only
  rw [expv_apply, subf_apply, spreadRows]

/-- The rescaling factor at lane `qq`: `e^{previous shift - new shift}`. -/
theorem pay10_apply (q k : Vec Ideal S1x1024x64 .f32) (mp : Vec Ideal S1x1024 .f32) (qq : Fin 1024) :
    k0_pay10 (F := Ideal) q k mp (ix2 0 qq)
      = Ideal.exp (mp (ix2 0 qq) - k0_pay8 (F := Ideal) q k mp (ix2 0 qq)) := by
  unfold k0_pay10
  try dsimp only
  rw [expv_apply, subf_apply]

/-- The new normaliser at lane `qq`. -/
theorem pay11_apply (q k : Vec Ideal S1x1024x64 .f32) (mp lp : Vec Ideal S1x1024 .f32) (qq : Fin 1024) :
    k0_pay11 (F := Ideal) q k mp lp (ix2 0 qq)
      = k0_pay10 (F := Ideal) q k mp (ix2 0 qq) * lp (ix2 0 qq) + ∑ jj : Fin 1024, k0_pay9 (F := Ideal) q k mp (ix2 jj qq) := by
  unfold k0_pay11
  try dsimp only
  rw [shapeCast_self, addf_apply, mulf_apply, rowOfLane, laneSum]

/-! the value matmul's operand indices -/
theorem v_lhs0 (i : S512x1024.Idx) (q : dot_S512x1024_S1024x1024_S512x1024_1_0_0_1_n_n.contr.Idx) : (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem v_lhs1 (i : S512x1024.Idx) (q : dot_S512x1024_S1024x1024_S512x1024_1_0_0_1_n_n.contr.Idx) : (dot_S512x1024_S1024x1024_S512x1024_1_0_0_1_n_n.lhsIdx i q 1).val = (q ⟨0, by decide⟩).val :=
  dot_S512x1024_S1024x1024_S512x1024_1_0_0_1_n_n.lhsIdx_val_of_single rfl i q
theorem v_rhs0 (i : S512x1024.Idx) (q : dot_S512x1024_S1024x1024_S512x1024_1_0_0_1_n_n.contr.Idx) : (dot_S512x1024_S1024x1024_S512x1024_1_0_0_1_n_n.rhsIdx i q 0).val = (q ⟨0, by decide⟩).val :=
  dot_S512x1024_S1024x1024_S512x1024_1_0_0_1_n_n.rhsIdx_val_of_single rfl i q
theorem v_rhs1 (i : S512x1024.Idx) (q : dot_S512x1024_S1024x1024_S512x1024_1_0_0_1_n_n.contr.Idx) : (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The tile's contribution to the weighted sum: channel `ch`'s values against the keys' weights for query `qq`. -/
theorem pay12_apply (q k : Vec Ideal S1x1024x64 .f32) (mp : Vec Ideal S1x1024 .f32) (av : Vec Ideal S1x512x1024 .bf16)
    (ch : Fin 512) (qq : Fin 1024) :
    k0_pay12 (F := Ideal) q k mp av (ix2 ch qq)
      = ∑ jj : Fin 1024, av (ix3 0 ch jj) * k0_pay9 (F := Ideal) q k mp (ix2 jj qq) := by
  unfold k0_pay12
  simp only [matmul]
  rw [Ideal.matmul_constant_zero_apply, ← Equiv.sum_comp (contrEquiv1 dot_S512x1024_S1024x1024_S512x1024_1_0_0_1_n_n 1024 rfl rfl).symm]
  refine Finset.sum_congr rfl fun jj _ => ?_
  have hd := contrEquiv1_symm_val dot_S512x1024_S1024x1024_S512x1024_1_0_0_1_n_n 1024 rfl rfl jj
  congr 1
  · refine shapeCast_apply av _ _ (ix3 0 ch jj) ?_
    rw [Shape.rowMajor_val_three, Shape.rowMajor_val_two, v_lhs0, v_lhs1, hd]
    show (0 * 512 + ch.val) * 1024 + jj.val = ch.val * 1024 + jj.val
    omega
  · show k0_pay9 (F := Ideal) q k mp (dot_S512x1024_S1024x1024_S512x1024_1_0_0_1_n_n.rhsIdx (ix2 ch qq) _) = _
    refine congrArg _ (funext fun a => Fin.ext ?_)
    match a with
    | ⟨0, _⟩ => exact (v_rhs0 _ _).trans hd
    | ⟨1, _⟩ => exact v_rhs1 (ix2 ch qq) _

/-- The rescaling factor, spread over the channels. -/
theorem pay13_apply (q k : Vec Ideal S1x1024x64 .f32) (mp : Vec Ideal S1x1024 .f32) (ch : Fin 512) (qq : Fin 1024) :
    k0_pay13 (F := Ideal) q k mp (ix2 ch qq) = k0_pay10 (F := Ideal) q k mp (ix2 0 qq) := by
  unfold k0_pay13
  exact spreadChannels _ ch qq

/-- The weighted sum's update, entry by entry: factor · previous + contribution. -/
theorem pay1_apply (v29 : FVec Ideal S512x1024 .f32) (v30 : Vec Ideal S512x1024 .f32) (v31 : FVec Ideal S512x1024 .f32)
    (i : S512x1024.Idx) : k0_pay1 (F := Ideal) v29 v30 v31 i = v31 i * v30 i + v29 i := by
  unfold k0_pay1
  rw [shapeCast_self]
  rfl

theorem pay2_eq (v : FVec Ideal S1x1024 .f32) : k0_pay2 (F := Ideal) v = v := by
  unfold k0_pay2
  rw [shapeCast_self]

/-- The output block, entry by entry: weighted sum · (1 / normaliser) + residual. -/
theorem pay3_apply (l : Vec Ideal S1x1024 .f32) (acc : Vec Ideal S512x1024 .f32) (res : Vec Ideal S1x512x1024 .f32)
    (ch : Fin 512) (qq : Fin 1024) :
    k0_pay3 (F := Ideal) l acc res (ix3 0 ch qq)
      = acc (ix2 ch qq) * Ideal.div (Ideal.ofBits .f32 0x3F800000#32) (l (ix2 0 qq)) + res (ix3 0 ch qq) := by
  unfold k0_pay3
  refine (shapeCast_apply _ Facts₀.shapeCasts_S512x1024_S1x512x1024 (ix3 0 ch qq) (ix2 ch qq) ?_).trans ?_
  · rw [Shape.rowMajor_val_two, Shape.rowMajor_val_three]
    show ch.val * 1024 + qq.val = (0 * 512 + ch.val) * 1024 + qq.val
    omega
  · show acc (ix2 ch qq) * broadcastTo S512x1024 (divf (broadcast S1x1024 (Scalar.ofBits (F := Ideal) .f32 0x3F800000#32)) l)
        Facts₀.broadcasts_S1x1024_S512x1024 (ix2 ch qq) + shapeCast S512x1024 res Facts₀.shapeCasts_S1x512x1024_S512x1024 (ix2 ch qq) = _
    rw [spreadChannels, shapeCast_apply res Facts₀.shapeCasts_S1x512x1024_S512x1024 (ix2 ch qq) (ix3 0 ch qq) (by
      rw [Shape.rowMajor_val_two, Shape.rowMajor_val_three]
      show (0 * 512 + ch.val) * 1024 + qq.val = ch.val * 1024 + qq.val
      omega)]
    rfl

/-! The reset constants. -/
theorem pay4_apply (i : S1x1024.Idx) : k0_pay4 (F := Ideal) i = Ideal.ofBits .f32 0xFF333332#32 := by
  unfold k0_pay4
  rw [shapeCast_self]
  rfl
theorem pay5_apply (i : S1x1024.Idx) : k0_pay5 (F := Ideal) i = 0 := by
  unfold k0_pay5
  rw [shapeCast_self]
  exact Ideal.ofBits_zero_f32
theorem pay6_apply (i : S512x1024.Idx) : k0_pay6 (F := Ideal) i = 0 := by
  unfold k0_pay6
  rw [shapeCast_self]
  exact Ideal.ofBits_zero_f32

/-- The large negative word the running shift starts from denotes a real number: its exponent field is not all
    ones, so it is a (sub)normal pattern. -/
theorem startWord_real : ∃ r : ℝ, Ideal.ofBits .f32 0xFF333332#32 = (r : EReal) := by
  show ∃ r : ℝ, Ideal.ieee 8 23 (0xFF333332#32 : BitVec 32) = (r : EReal)
  unfold Ideal.ieee
  dsimp only
  rw [if_neg (by decide)]
  split_ifs <;> exact ⟨_, rfl⟩
/-- The word `0xFF800000` denotes `-∞`. -/
theorem negInfWord : Ideal.ofBits .f32 0xFF800000#32 = ⊥ := by simp [Ideal.ofBits, Ideal.ieee]
/-- The word `0x3F800000` denotes the number one. -/
theorem oneWord : Ideal.ofBits .f32 0x3F800000#32 = 1 := IdealRules.sign_bit.ideal_onePat .f32

end Cert.KernelIdeal.BodyAt
end
-- ==== Proof.ExtReal.lean ====
/-
  Extended-real facts used to carry real closed forms through exact operations:
  a finite sum of reals is the real sum, a maximum over finitely many reals (from an initial value below +∞) is not
  +∞, a maximum with a real is real, and `e^{x - y}` of two reals is the real exponential of the difference.
-/
import Idealize.ShloMosaic.PureOps.Ideal
import Mathlib.Data.Finset.Fold

noncomputable section

namespace ExtReal

open Idealize.ShloMosaic

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A running maximum of real numbers, started below `+∞`, stays below `+∞`. -/
theorem fold_max_lt_top {ι : Type*} (s : Finset ι) (init : EReal) (hinit : init < ⊤) (f : ι → EReal)
    (hf : ∀ i, f i < ⊤) : s.fold max init f < ⊤ :=
  (Finset.fold_max_lt ⊤).mpr ⟨hinit, fun x _ => hf x⟩

/-- A running maximum over a nonempty family of values above `-∞` is above `-∞`. -/
theorem bot_lt_fold_max {ι : Type*} (s : Finset ι) (hs : s.Nonempty) (init : EReal) (f : ι → EReal)
    (hf : ∀ i, ⊥ < f i) : ⊥ < s.fold max init f := by
  obtain ⟨x, hx⟩ := hs
  exact (Finset.lt_fold_max ⊥).mpr (Or.inr ⟨x, hx, hf x⟩)

/-- An extended real strictly between the infinities is a real. -/
theorem eq_coe_of_lt {x : EReal} (h1 : ⊥ < x) (h2 : x < ⊤) : x = ((x.toReal : ℝ) : EReal) :=
  (EReal.coe_toReal h2.ne h1.ne').symm

/-- The maximum of a real and a value below `+∞` is a real. -/
theorem max_coe_real (μ : ℝ) (X : EReal) (hX : X < ⊤) :
    max (μ : EReal) X = (((max (μ : EReal) X).toReal : ℝ) : EReal) :=
  eq_coe_of_lt (lt_of_lt_of_le (EReal.bot_lt_coe μ) (le_max_left _ _)) (max_lt (EReal.coe_lt_top μ) hX)

/-- The exact exponential of a difference of two reals. -/
theorem exp_sub_coe (x y : ℝ) : Ideal.exp ((x : EReal) - (y : EReal)) = ((Real.exp (x - y) : ℝ) : EReal) := by
  rw [← EReal.coe_sub, Ideal.exp_coe]

/-- The exact quotient `1 / y` for a nonzero real `y`. -/
theorem one_div_coe {y : ℝ} (h : y ≠ 0) : Ideal.div (1 : EReal) (y : EReal) = ((1 / y : ℝ) : EReal) := by
  rw [Ideal.div_coe h, one_mul]

/-- The exact quotient of two reals, the divisor nonzero. -/
theorem div_coe_coe (x : ℝ) {y : ℝ} (h : y ≠ 0) : Ideal.div (x : EReal) (y : EReal) = ((x / y : ℝ) : EReal) := by
  rw [Ideal.div_coe h, ← EReal.coe_mul, mul_one_div]

end ExtReal

end
-- ==== Proof.Lane.lean ====
/-
  One key-tile step of the body, on one query lane, in real numbers.

  Suppose the loaded blocks are real-valued, and at lane `qq` the previous shift is the real `μ`, the previous
  normaliser the real `L` and the previous weighted sums the reals `A ch`.  Then the new shift is a real `μ'` (a maximum
  of finitely many reals and `μ`; which real does not matter), the new normaliser is
  `e^{μ - μ'} · L + Σ_keys e^{score - μ'}` and the new weighted sums are `e^{μ - μ'} · A ch + Σ_keys value · e^{score - μ'}`,
  all three as real numbers.  At the last key tile the output entry is `A ch · (1 / L) + residual`.
-/
import proofs.«130554_j28587302322762_2_alg».proof.Proof.BodyAt
import proofs.«130554_j28587302322762_2_alg».proof.Proof.Pieces
import proofs.«130554_j28587302322762_2_alg».proof.Proof.ExtReal

set_option maxRecDepth 16384

noncomputable section

open Idealize.ShloMosaic Idealize.ShloMosaic.ValueIdx

namespace Cert.KernelIdeal.Lane

open Cert.KernelIdeal Cert.KernelIdeal.Gen Cert.KernelIdeal.Body Cert.KernelIdeal.BodyAt

/-- The score of key row `jj` against query row `qq` of the two loaded blocks. -/
def tileScore (qr kr : S1x1024x64.Idx → ℝ) (qq jj : Fin 1024) : ℝ :=
  ∑ d : Fin 64, kr (ix3 0 jj d) * qr (ix3 0 qq d)

theorem lane_step (q k : Vec Ideal S1x1024x64 .f32) (av : Vec Ideal S1x512x1024 .bf16) (mp lp : Vec Ideal S1x1024 .f32)
    (accp : Vec Ideal S512x1024 .f32) (qr kr : S1x1024x64.Idx → ℝ) (avr : S1x512x1024.Idx → ℝ)
    (hq : ∀ i, q i = (qr i : EReal)) (hk : ∀ i, k i = (kr i : EReal)) (hav : ∀ i, av i = (avr i : EReal))
    (qq : Fin 1024) (μ L : ℝ) (A : Fin 512 → ℝ)
    (hm : mp (ix2 0 qq) = (μ : EReal)) (hl : lp (ix2 0 qq) = (L : EReal))
    (hacc : ∀ ch : Fin 512, accp (ix2 ch qq) = (A ch : EReal)) :
    ∃ μ' : ℝ, newM q k mp (ix2 0 qq) = (μ' : EReal)
      ∧ newL q k mp lp (ix2 0 qq)
          = ((Real.exp (μ - μ') * L + ∑ jj : Fin 1024, Real.exp (tileScore qr kr qq jj - μ') : ℝ) : EReal)
      ∧ ∀ ch : Fin 512, newAcc q k mp av accp (ix2 ch qq)
          = ((Real.exp (μ - μ') * A ch + ∑ jj : Fin 1024, avr (ix3 0 ch jj) * Real.exp (tileScore qr kr qq jj - μ') : ℝ) : EReal) := by
  have hs : ∀ jj, k0_pay7 (F := Ideal) q k (ix2 jj qq) = ((tileScore qr kr qq jj : ℝ) : EReal) := fun jj => by
    rw [score_apply]
    unfold tileScore
    rw [ExtReal.coe_sum]
    exact Finset.sum_congr rfl fun d _ => by rw [hk, hq, EReal.coe_mul]
  have hX : (Finset.univ : Finset (Fin 1024)).fold max (Ideal.ofBits .f32 0xFF800000#32)
      (fun jj => k0_pay7 (F := Ideal) q k (ix2 jj qq)) < ⊤ :=
    ExtReal.fold_max_lt_top _ _ (by rw [negInfWord]; exact bot_lt_top) _ (fun jj => by rw [hs]; exact EReal.coe_lt_top _)
  obtain ⟨μ', hμ'⟩ : ∃ μ' : ℝ, k0_pay8 (F := Ideal) q k mp (ix2 0 qq) = (μ' : EReal) :=
    ⟨_, ((pay8_apply q k mp qq).trans (by rw [hm])).trans (ExtReal.max_coe_real μ _ hX)⟩
  have h9 : ∀ jj, k0_pay9 (F := Ideal) q k mp (ix2 jj qq) = ((Real.exp (tileScore qr kr qq jj - μ') : ℝ) : EReal) :=
    fun jj => by rw [pay9_apply, hs, hμ', ExtReal.exp_sub_coe]
  have h10 : k0_pay10 (F := Ideal) q k mp (ix2 0 qq) = ((Real.exp (μ - μ') : ℝ) : EReal) := by
    rw [pay10_apply, hm, hμ', ExtReal.exp_sub_coe]
  refine ⟨μ', ?_, ?_, ?_⟩
  · unfold newM
    rw [pay2_eq]
    exact hμ'
  · unfold newL
    rw [pay11_apply, h10, hl, EReal.coe_add, EReal.coe_mul, ExtReal.coe_sum]
    exact congrArg _ (Finset.sum_congr rfl fun jj _ => h9 jj)
  · intro ch
    unfold newAcc
    rw [pay1_apply, pay13_apply, h10, hacc ch, pay12_apply, EReal.coe_add, EReal.coe_mul, ExtReal.coe_sum]
    refine congrArg _ (Finset.sum_congr rfl fun jj _ => ?_)
    rw [hav, h9, EReal.coe_mul]

/-- The output entry at the last key tile. -/
theorem lane_out (l : Vec Ideal S1x1024 .f32) (acc : Vec Ideal S512x1024 .f32) (res : Vec Ideal S1x512x1024 .f32)
    (ch : Fin 512) (qq : Fin 1024) (Lr Ar : ℝ) (hLr : Lr ≠ 0)
    (hl : l (ix2 0 qq) = (Lr : EReal)) (ha : acc (ix2 ch qq) = (Ar : EReal)) :
    outBlock l acc res (ix3 0 ch qq) = ((Ar * (1 / Lr) : ℝ) : EReal) + res (ix3 0 ch qq) := by
  unfold outBlock
  rw [pay3_apply, hl, ha, oneWord, ExtReal.one_div_coe hLr, ← EReal.coe_mul]

/-- The reset constants at a lane: a real shift, and zeros. -/
theorem start_values (qq : Fin 1024) :
    ∃ μ : ℝ, k0_pay4 (F := Ideal) (ix2 0 qq) = (μ : EReal) := by
  obtain ⟨r, hr⟩ := startWord_real
  exact ⟨r, (pay4_apply _).trans hr⟩

end Cert.KernelIdeal.Lane

end
-- ==== Proof.Invariant.lean ====
/-
  The invariant of the streamed softmax over the grid, and the value of the output block at the last key tile.

  After the body has run at grid point `t` — batch `b`, query tile `qt`, key tile `K = t % 4` — the three carried
  buffers hold, at every query lane `qq` (query position `Q = 1024 · qt + qq`): a real shift `μ`; the sum over the key
  positions of key tiles `0 … K` of `e^{score - μ}`; and, per channel, the sum over the same key positions of
  `a[b, ch, key] · e^{score - μ}`.  Induction on the point: at key tile 0 the buffers start from the reset constants, at
  the later key tiles from what the point before left (same batch and query tile), one streaming step each time.
  At key tile 3 all 4096 key positions are in, and the output entry is the softmax average plus the residual.
-/
import proofs.«130554_j28587302322762_2_alg».proof.Proof.Cases
import proofs.«130554_j28587302322762_2_alg».proof.Proof.Blocks
import proofs.«130554_j28587302322762_2_alg».proof.Proof.Lane
import proofs.«130554_j28587302322762_2_alg».proof.Proof.Spec

set_option maxRecDepth 16384

noncomputable section

open Idealize.ShloMosaic Idealize.ShloMosaic.TcCoe Idealize.SL.Sem Idealize.ShloMosaic.ValueIdx

namespace Cert.KernelIdeal.Invariant

open Cert.KernelIdeal Cert.KernelIdeal.Gen Cert.KernelIdeal.Body Cert.KernelIdeal.Cases Cert.KernelIdeal.Blocks
  Cert.KernelIdeal.Lane Attn OnlineSoftmax

/-- The coordinates of an index of a [1, 1024, 64] block and of a [1, 512, 1024] block, typed by their extents. -/
def row (i : S1x1024x64.Idx) : Fin 1024 := ⟨(i 1).val, (i 1).isLt⟩
def feat (i : S1x1024x64.Idx) : Fin 64 := ⟨(i 2).val, (i 2).isLt⟩
def chan (i : S1x512x1024.Idx) : Fin 512 := ⟨(i 1).val, (i 1).isLt⟩
def col (i : S1x512x1024.Idx) : Fin 1024 := ⟨(i 2).val, (i 2).isLt⟩

/-- An index of a block with a leading axis of extent one has first coordinate zero. -/
theorem unitRows (i : S1x1024x64.Idx) : i = ix3 (0 : Fin 1) (row i) (feat i) := by
  funext a
  match a with
  | ⟨0, _⟩ => exact Fin.ext (by have h : (i 0).val < 1 := (i 0).isLt; show (i 0).val = 0; omega)
  | ⟨1, _⟩ => rfl
  | ⟨2, _⟩ => rfl
theorem unitCols (i : S1x512x1024.Idx) : i = ix3 (0 : Fin 1) (chan i) (col i) := by
  funext a
  match a with
  | ⟨0, _⟩ => exact Fin.ext (by have h : (i 0).val < 1 := (i 0).isLt; show (i 0).val = 0; omega)
  | ⟨1, _⟩ => rfl
  | ⟨2, _⟩ => rfl

variable (m : (ℓ : Loc nD τ sig) → Buf (Elt Ideal) ℓ) (c : Dev nD)
variable (Ar : SA.Idx → ℝ) (Br Cr : SB.Idx → ℝ)

/-- The real parts of the query, key and value blocks at a point. -/
def qr (t : Fin cfg0.N) : S1x1024x64.Idx → ℝ := fun i => Br (ix3 (batchOf t) (pos (qTileOf t) (row i)) (feat i))
def kr (t : Fin cfg0.N) : S1x1024x64.Idx → ℝ := fun i => Cr (ix3 (batchOf t) (pos (kTileOf t) (row i)) (feat i))
def avr (t : Fin cfg0.N) : S1x512x1024.Idx → ℝ := fun i => Ar (ix3 (batchOf t) (chan i) (pos (kTileOf t) (col i)))

/-- The score inside the blocks is the score of the global positions. -/
theorem tileScore_eq (t : Fin cfg0.N) (qq jj : Fin 1024) :
    tileScore (qr Br t) (kr Cr t) qq jj = score Br Cr (batchOf t) (pos (qTileOf t) qq) (pos (kTileOf t) jj) := rfl

/-- The value block's real part at explicit coordinates. -/
theorem avr_apply (t : Fin cfg0.N) (ch : Fin 512) (jj : Fin 1024) :
    avr Ar t (ix3 0 ch jj) = Ar (ix3 (batchOf t) ch (pos (kTileOf t) jj)) := rfl

/-- The invariant, over the contents of the three carried buffers: at lane `qq`, for batch `b`, query tile `qt`, with the
    key tiles `0 … K` in. -/
def HoldsAt (b qt : Fin 4) (K : ℕ) (qq : Fin 1024) (pacc : Vec Ideal S512x1024 .f32) (pm pl : Vec Ideal S1x1024 .f32) : Prop :=
  ∃ μ : ℝ,
    pm (ix2 0 qq) = (μ : EReal)
    ∧ pl (ix2 0 qq) = ((∑ p ∈ upTo (κ := Fin 1024) K, Real.exp (score Br Cr b (pos qt qq) (pos p.1 p.2) - μ) : ℝ) : EReal)
    ∧ ∀ ch : Fin 512, pacc (ix2 ch qq)
        = ((∑ p ∈ upTo (κ := Fin 1024) K, Ar (ix3 b ch (pos p.1 p.2)) * Real.exp (score Br Cr b (pos qt qq) (pos p.1 p.2) - μ) : ℝ) : EReal)

theorem holdsAt_congr (b qt : Fin 4) (K : ℕ) (qq : Fin 1024) {pacc pacc' : Vec Ideal S512x1024 .f32} {pm pm' pl pl' : Vec Ideal S1x1024 .f32}
    (e1 : pacc' = pacc) (e2 : pm' = pm) (e3 : pl' = pl) (H : HoldsAt Ar Br Cr b qt K qq pacc pm pl) :
    HoldsAt Ar Br Cr b qt K qq pacc' pm' pl' := by
  subst e1 e2 e3
  exact H

section
variable (hA : ∀ i, m ((c : Thread nD τ).loc main_arg0) i = (Ar i : EReal))
variable (hB : ∀ i, m ((c : Thread nD τ).loc main_arg1) i = (Br i : EReal))
variable (hC : ∀ i, m ((c : Thread nD τ).loc main_arg2) i = (Cr i : EReal))
include hA hB hC

theorem hq (t : Fin cfg0.N) (i : S1x1024x64.Idx) : (iblk m c 2 t : Vec Ideal S1x1024x64 .f32) i = (qr Br t i : EReal) :=
  (congrArg (iblk m c 2 t : Vec Ideal S1x1024x64 .f32) (unitRows i)).trans ((qBlock m c t (row i) (feat i)).trans (hB _))
theorem hk (t : Fin cfg0.N) (i : S1x1024x64.Idx) : (iblk m c 3 t : Vec Ideal S1x1024x64 .f32) i = (kr Cr t i : EReal) :=
  (congrArg (iblk m c 3 t : Vec Ideal S1x1024x64 .f32) (unitRows i)).trans ((kBlock m c t (row i) (feat i)).trans (hC _))
theorem hav (t : Fin cfg0.N) (i : S1x512x1024.Idx) : (iblk m c 0 t : Vec Ideal S1x512x1024 .bf16) i = (avr Ar t i : EReal) :=
  (congrArg (iblk m c 0 t : Vec Ideal S1x512x1024 .bf16) (unitCols i)).trans ((vBlock m c t (chan i) (col i)).trans (hA _))

/-- Key tile 0: one step from the reset constants. -/
theorem first_holds (t : Fin cfg0.N) (h0 : t.val % 4 = 0) (qq : Fin 1024) :
    HoldsAt Ar Br Cr (batchOf t) (qTileOf t) 0 qq
      (newAcc (iblk m c 2 t) (iblk m c 3 t) (k0_pay4 (F := Ideal)) (iblk m c 0 t) (k0_pay6 (F := Ideal)))
      (newM (iblk m c 2 t) (iblk m c 3 t) (k0_pay4 (F := Ideal)))
      (newL (iblk m c 2 t) (iblk m c 3 t) (k0_pay4 (F := Ideal)) (k0_pay5 (F := Ideal))) := by
  obtain ⟨μ0, hμ0⟩ := start_values qq
  obtain ⟨μ', hm', hl', hacc'⟩ := lane_step (iblk m c 2 t) (iblk m c 3 t) (iblk m c 0 t) (k0_pay4 (F := Ideal)) (k0_pay5 (F := Ideal))
    (k0_pay6 (F := Ideal)) (qr Br t) (kr Cr t) (avr Ar t) (hq m c Ar Br Cr hA hB hC t) (hk m c Ar Br Cr hA hB hC t) (hav m c Ar Br Cr hA hB hC t) qq μ0 0 (fun _ => 0) hμ0
    ((BodyAt.pay5_apply (ix2 0 qq)).trans EReal.coe_zero.symm) (fun ch => (BodyAt.pay6_apply (ix2 ch qq)).trans EReal.coe_zero.symm)
  have hkt : kTileOf t = 0 := Fin.ext h0
  refine ⟨μ', hm', ?_, ?_⟩
  · rw [hl', upTo_zero, sum_group]
    refine congrArg (fun r : ℝ => (r : EReal)) ?_
    rw [mul_zero, zero_add]
    exact Finset.sum_congr rfl fun jj _ => by rw [tileScore_eq, hkt]
  · intro ch
    rw [hacc' ch, upTo_zero, sum_group]
    refine congrArg (fun r : ℝ => (r : EReal)) ?_
    rw [mul_zero, zero_add]
    exact Finset.sum_congr rfl fun jj _ => by rw [tileScore_eq, avr_apply, hkt]

/-- A later key tile: one streaming step on whatever contents satisfy the invariant for the tiles before. -/
theorem step_holds (t : Fin cfg0.N) (K : ℕ) (hK : K + 1 < 4) (hkt : t.val % 4 = K + 1) (qq : Fin 1024)
    (pacc : Vec Ideal S512x1024 .f32) (pm pl : Vec Ideal S1x1024 .f32)
    (ih : HoldsAt Ar Br Cr (batchOf t) (qTileOf t) K qq pacc pm pl) :
    HoldsAt Ar Br Cr (batchOf t) (qTileOf t) (K + 1) qq
      (newAcc (iblk m c 2 t) (iblk m c 3 t) pm (iblk m c 0 t) pacc)
      (newM (iblk m c 2 t) (iblk m c 3 t) pm)
      (newL (iblk m c 2 t) (iblk m c 3 t) pm pl) := by
  obtain ⟨μ, hm, hl, hacc⟩ := ih
  obtain ⟨μ', hm', hl', hacc'⟩ := lane_step (iblk m c 2 t) (iblk m c 3 t) (iblk m c 0 t) pm pl pacc
    (qr Br t) (kr Cr t) (avr Ar t) (hq m c Ar Br Cr hA hB hC t) (hk m c Ar Br Cr hA hB hC t) (hav m c Ar Br Cr hA hB hC t) qq μ _ _ hm hl hacc
  have hktF : kTileOf t = ⟨K + 1, hK⟩ := Fin.ext hkt
  refine ⟨μ', hm', ?_, ?_⟩
  · rw [hl', upTo_succ K hK]
    refine congrArg (fun r : ℝ => (r : EReal)) ?_
    refine Eq.trans ?_ (step_sum (upTo K) (group ⟨K + 1, hK⟩) (disjoint_upTo_group K hK)
      (fun p => score Br Cr (batchOf t) (pos (qTileOf t) qq) (pos p.1 p.2)) μ μ')
    refine congrArg₂ (· + ·) rfl ?_
    rw [sum_group]
    exact Finset.sum_congr rfl fun jj _ => by rw [tileScore_eq, hktF]
  · intro ch
    rw [hacc' ch, upTo_succ K hK]
    refine congrArg (fun r : ℝ => (r : EReal)) ?_
    refine Eq.trans ?_ (step_wsum (upTo K) (group ⟨K + 1, hK⟩) (disjoint_upTo_group K hK)
      (fun p => Ar (ix3 (batchOf t) ch (pos p.1 p.2)))
      (fun p => score Br Cr (batchOf t) (pos (qTileOf t) qq) (pos p.1 p.2)) μ μ')
    refine congrArg₂ (· + ·) rfl ?_
    rw [sum_group]
    exact Finset.sum_congr rfl fun jj _ => by rw [tileScore_eq, avr_apply, hktF]

/-- The invariant holds of what the carried buffers hold after every grid point. -/
theorem holds : ∀ (n : ℕ) (h : n < cfg0.N) (qq : Fin 1024),
    HoldsAt Ar Br Cr (batchOf ⟨n, h⟩) (qTileOf ⟨n, h⟩) (n % 4) qq
      (outsAt0 m c n h).2.1 (outsAt0 m c n h).2.2.1 (outsAt0 m c n h).2.2.2
  | 0, h, qq => by
    obtain ⟨eacc, em, el⟩ := scratch_zero m c 0 h rfl
    exact holdsAt_congr Ar Br Cr _ _ _ qq eacc em el (first_holds m c Ar Br Cr hA hB hC ⟨0, h⟩ rfl qq)
  | n + 1, h, qq => by
    have hN : n + 1 < 64 := lt_of_lt_of_eq h (show cfg0.N = 64 from N_0)
    by_cases h0 : (n + 1) % 4 = 0
    · obtain ⟨eacc, em, el⟩ := scratch_zero m c (n + 1) h h0
      rw [h0]
      exact holdsAt_congr Ar Br Cr _ _ _ qq eacc em el (first_holds m c Ar Br Cr hA hB hC ⟨n + 1, h⟩ h0 qq)
    · have hb : batchOf (⟨n, Nat.lt_of_succ_lt h⟩ : Fin cfg0.N) = batchOf ⟨n + 1, h⟩ :=
        Fin.ext (by show n / 16 = (n + 1) / 16; omega)
      have hqt : qTileOf (⟨n, Nat.lt_of_succ_lt h⟩ : Fin cfg0.N) = qTileOf ⟨n + 1, h⟩ :=
        Fin.ext (by show n / 4 % 4 = (n + 1) / 4 % 4; omega)
      have hmod : (n + 1) % 4 = n % 4 + 1 := by omega
      have hK : n % 4 + 1 < 4 := by omega
      obtain ⟨eacc, em, el⟩ := scratch_succ m c n h h0
      have ih := holds n (Nat.lt_of_succ_lt h) qq
      rw [hb, hqt] at ih
      rw [hmod]
      exact holdsAt_congr Ar Br Cr _ _ _ qq eacc em el
        (step_holds m c Ar Br Cr hA hB hC ⟨n + 1, h⟩ (n % 4) hK hmod qq _ _ _ ih)

/-- At the last key tile the output entry is the softmax average plus the residual. -/
theorem out_value (n : ℕ) (h : n < cfg0.N) (h3 : n % 4 = 3) (ch : Fin 512) (qq : Fin 1024) :
    (outsAt0 m c n h).1 (ix3 0 ch qq)
      = ((avg Ar Br Cr (batchOf ⟨n, h⟩) ch (pos (qTileOf ⟨n, h⟩) qq) : ℝ) : EReal)
        + m ((c : Thread nD τ).loc main_arg0) (ix3 (batchOf ⟨n, h⟩) ch (pos (qTileOf ⟨n, h⟩) qq)) := by
  have eout := out_last m c n h h3
  obtain ⟨μ, -, hl, hacc⟩ := holds m c Ar Br Cr hA hB hC n h qq
  have hacc' := hacc ch
  rw [h3, upTo_three] at hl hacc'
  have hpos : (∑ p : Fin 4 × Fin 1024, Real.exp (score Br Cr (batchOf ⟨n, h⟩) (pos (qTileOf ⟨n, h⟩) qq) (pos p.1 p.2) - μ)) ≠ 0 :=
    (Finset.sum_pos (fun p _ => Real.exp_pos _) Finset.univ_nonempty).ne'
  rw [eout, lane_out _ _ _ ch qq _ _ hpos hl hacc', resBlock, avg_of_groups]

end

end Cert.KernelIdeal.Invariant

end
-- ==== Proof.KernelValue.lean ====
/-
  The kernel's result array is the specification's function of the argument arrays.

  Only the points of the last key tile write the output block back, one block per (batch, query tile); what they write
  is the softmax average plus the residual at every entry of the block (the invariant), the sixteen blocks tile the
  array, so the array after the run is the specification's function everywhere.
-/
import proofs.«130554_j28587302322762_2_alg».proof.Proof.Invariant
import proofs.«130554_j28587302322762_2_alg».proof.Proof.Gen.KernelIdeal.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen Cert.KernelIdeal.Blocks Cert.KernelIdeal.Invariant Attn

variable (m : (ℓ : Loc nD τ sig) → Buf (Elt Ideal) ℓ) (ρ : Dev nD → PrngReg)

/-- An index of the array is in point `t`'s block iff each coordinate is in the block's range on its axis. -/
theorem mem_blk (t : Fin cfg0.N) (i : S4x512x4096.Idx) :
    i ∈ ((cfg0.win 4).blk t).view.set ↔ ∀ a : Fin 3, win0_4.index t a * S1x512x1024.size a ≤ (i a).val ∧ (i a).val < win0_4.index t a * S1x512x1024.size a + S1x512x1024.size a := by
  show i ∈ ((View.whole main_v1).slice (win0_4.rect t)).set ↔ _
  rw [View.set_slice_whole, Rect.mem_set_unit]
  exact Iff.rfl

/-- Every entry of the array is in the block some point of the last key tile writes back. -/
theorem cover (i : S4x512x4096.Idx) : ∃ t : Fin cfg0.N, (cfg0.win 4).flush t = true ∧ i ∈ ((cfg0.win 4).blk t).view.set := by
  have hN : cfg0.N = 64 := N_0
  have h0 : (i 0).val < 4 := (i 0).isLt
  have h1 : (i 1).val < 512 := (i 1).isLt
  have h2 : (i 2).val < 4096 := (i 2).isLt
  let t : Fin cfg0.N := ⟨16 * (i 0).val + 4 * ((i 2).val / 1024) + 3, by omega⟩
  have ht : t.val = 16 * (i 0).val + 4 * ((i 2).val / 1024) + 3 := rfl
  obtain ⟨e0, e1, e2⟩ := idx4 t
  refine ⟨t, (flush0_4 t).mpr (by omega), ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 1024 ≤ (i 2).val ∧ (i 2).val < win0_4.index t (2 : Fin 3) * 1024 + 1024; omega

/-- The specification at device `c`'s argument arrays. -/
abbrev spec (c : Dev nD) : S4x512x4096.Idx → EReal :=
  G (m ((c : Thread nD τ).loc main_arg0)) (m ((c : Thread nD τ).loc main_arg1)) (m ((c : Thread nD τ).loc main_arg2))

section
variable (c : Dev nD)
variable (hA : ∀ i, m ((c : Thread nD τ).loc main_arg0) i = (((m ((c : Thread nD τ).loc main_arg0) i).toReal : ℝ) : EReal))
variable (hB : ∀ i, m ((c : Thread nD τ).loc main_arg1) i = (((m ((c : Thread nD τ).loc main_arg1) i).toReal : ℝ) : EReal))
variable (hC : ∀ i, m ((c : Thread nD τ).loc main_arg2) i = (((m ((c : Thread nD τ).loc main_arg2) i).toReal : ℝ) : EReal))
include hA hB hC

/-- What a point of the last key tile writes back is its block of the specification. -/
theorem flushed_eq (t : Fin cfg0.N) (hf : (cfg0.win 4).flush t = true) :
    (dats m 0 c).flushed 4 t = ((cfg0.win 4).blk t).view.read (Elt Ideal) (spec m c) := by
  have h3 : t.val % 4 = 3 := (flush0_4 t).mp hf
  obtain ⟨e0, e1, e2⟩ := idx4 t
  rw [Value.flushed4]
  funext j
  obtain ⟨ch, qq, rfl⟩ : ∃ (ch : Fin 512) (qq : Fin 1024), (j : S1x512x1024.Idx) = ix3 0 ch qq := ⟨chan j, col j, unitCols j⟩
  show (outsAt0 m c t.val t.isLt).1 (ix3 0 ch qq) = spec m c (((cfg0.win 4).blk t).view.emb (ix3 0 ch qq))
  have e : ((cfg0.win 4).blk t).view.emb (ix3 0 ch qq) = ix3 (batchOf t) ch (pos (qTileOf t) qq) := by
    funext a
    apply Fin.ext
    match a with
    | ⟨0, _⟩ => show win0_4.index t (0 : Fin 3) * 1 + 1 * 0 = t.val / 16; omega
    | ⟨1, _⟩ => show win0_4.index t (1 : Fin 3) * 512 + 1 * ch.val = ch.val; omega
    | ⟨2, _⟩ => show win0_4.index t (2 : Fin 3) * 1024 + 1 * qq.val = t.val / 4 % 4 * 1024 + qq.val; omega
  rw [e, out_value m c _ _ _ hA hB hC t.val t.isLt h3 ch qq]
  rfl

/-- The result array after the run. -/
theorem final : (dats m 0 c).arrAt 4 cfg0.N = spec m c :=
  (dats m 0 c).arrAt_eq_of_cover 4 (spec m c) (flushed_eq m c hA hB hC) cover

end

/-- The kernel's run: the result array at the specification, the arguments unchanged. -/
theorem run
    (hA : ∀ (c : Dev nD) i, m ((c : Thread nD τ).loc main_arg0) i = (((m ((c : Thread nD τ).loc main_arg0) i).toReal : ℝ) : EReal))
    (hB : ∀ (c : Dev nD) i, m ((c : Thread nD τ).loc main_arg1) i = (((m ((c : Thread nD τ).loc main_arg1) i).toReal : ℝ) : EReal))
    (hC : ∀ (c : Dev nD) i, m ((c : Thread nD τ).loc main_arg2) i = (((m ((c : Thread nD τ).loc main_arg2) i).toReal : ℝ) : EReal)) :
    θ_run defs (onTc (τ := τ) (main (F := Ideal))) ⟨m, fun _ => 0, ρ⟩ fun r => ∀ c : Dev nD,
      r.2.mem ((c : Thread nD τ).loc main_v1) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c (hA c) (hB c) (hC c)), (h c).2⟩)
    (Value.run_blocks m ρ)

end Cert.KernelIdeal.KernelValue

end
-- ==== Proof.RefValue.lean ====
/-
  The reference computes the same function.

  For batch `b` and query position `Q` the reference takes the shift `M = max_J score(b, Q, J)` (started from `-∞`),
  the weights `e^{score - M}`, their sum, the normalised weights, and the weighted sum of `a[b, ch, ·]`, then adds the
  residual.  All that is needed of `M` is that it is a real number — a maximum of 4096 real numbers —: the average does
  not depend on the shift (OnlineSoftmax.lean), so the result is the specification's average.
-/
import proofs.«130554_j28587302322762_2_alg».proof.Proof.Gen.ReferenceIdeal.Read
import proofs.«130554_j28587302322762_2_alg».proof.Proof.Spec
import proofs.«130554_j28587302322762_2_alg».proof.Proof.ExtReal

set_option maxRecDepth 16384

noncomputable section

open Idealize.ShloMosaic Idealize.ShloMosaic.ValueIdx

namespace Cert.ReferenceIdeal.RefValue

open Cert.ReferenceIdeal Cert.ReferenceIdeal.Read Attn

variable (A : S4x512x4096.Idx → EReal) (B C : S4x4096x64.Idx → EReal)
variable (Ar : SA.Idx → ℝ) (Br Cr : SB.Idx → ℝ)

section
variable (hA : ∀ i, A i = (Ar i : EReal)) (hB : ∀ i, B i = (Br i : EReal)) (hC : ∀ i, C i = (Cr i : EReal))
include hB hC

/-- A score, as the reference forms it. -/
theorem score_at (b : Fin 4) (Q J : Fin 4096) :
    val_main_v0 (F := Ideal) B C (ix3 b Q J) = ((score Br Cr b Q J : ℝ) : EReal) := by
  rw [val_main_v0_apply]
  unfold score
  rw [ExtReal.coe_sum]
  refine Finset.sum_congr rfl fun d _ => ?_
  have e1 : lidx_main_v0 (ix3 b Q J) d = ix3 b Q d := funext fun a => by
    match a with
    | ⟨0, _⟩ => rfl
    | ⟨1, _⟩ => rfl
    | ⟨2, _⟩ => rfl
  have e2 : ridx_main_v0 (ix3 b Q J) d = ix3 b J d := funext fun a => by
    match a with
    | ⟨0, _⟩ => rfl
    | ⟨1, _⟩ => rfl
    | ⟨2, _⟩ => rfl
  rw [e1, e2, hB, hC, ← EReal.coe_mul, mul_comm]

/-- The reference's shift at (b, Q) is a real number. -/
theorem shift_real (b : Fin 4) (Q : Fin 4096) :
    ∃ μr : ℝ, val_main_v3 (F := Ideal) B C (ix2 b Q) = (μr : EReal) := by
  have hred : S4x4096x4096.Reduces [2] S4x4096 := by decide
  have hfold := Host.reduce_eq_fold_single (FloatOps.maximumf (F := Ideal) (φ := .f32)) (val_main_v0 (F := Ideal) B C)
    (val_main_cst (F := Ideal)) Cert.ReferenceIdeal.Facts₀.reducesTo_S4x4096x4096_S4x4096_d2 hred Cert.ReferenceIdeal.Facts₀.h_S_ (ix2 b Q)
  have hentry : ∀ k : Fin 4096, ∃ r : ℝ, (val_main_v0 (F := Ideal) B C ∘ hred.lift (ix2 b Q)) k = (r : EReal) := fun k => by
    refine ⟨score Br Cr b Q k, ?_⟩
    show val_main_v0 (F := Ideal) B C (hred.lift (ix2 b Q) k) = _
    rw [← score_at B C Br Cr hB hC b Q k]
    refine congrArg _ (funext fun a => Fin.ext ?_)
    match a with
    | ⟨0, _⟩ => rfl
    | ⟨1, _⟩ => rfl
    | ⟨2, _⟩ => rfl
  have hlt : val_main_v1 (F := Ideal) B C (ix2 b Q) < ⊤ := by
    unfold val_main_v1
    rw [hfold]
    show (Finset.univ : Finset (Fin 4096)).fold max _ _ < ⊤
    refine ExtReal.fold_max_lt_top _ _ ?_ _ (fun k => ?_)
    · show Ideal.ofBits .f32 0xFF800000#32 < ⊤
      rw [show Ideal.ofBits .f32 0xFF800000#32 = ⊥ from by simp [Ideal.ofBits, Ideal.ieee]]
      exact bot_lt_top
    · obtain ⟨r, hr⟩ := hentry k
      rw [hr]; exact EReal.coe_lt_top r
  have hgt : ⊥ < val_main_v1 (F := Ideal) B C (ix2 b Q) := by
    unfold val_main_v1
    rw [hfold]
    show ⊥ < (Finset.univ : Finset (Fin 4096)).fold max _ _
    refine ExtReal.bot_lt_fold_max _ Finset.univ_nonempty _ _ (fun k => ?_)
    obtain ⟨r, hr⟩ := hentry k
    rw [hr]; exact EReal.bot_lt_coe r
  refine ⟨(val_main_v1 (F := Ideal) B C (ix2 b Q)).toReal, ?_⟩
  rw [val_main_v3_apply, val_main_v2_apply, val_main_cst_0_apply, Ideal.maximumf_def, Ideal.ofBits_def,
    show Ideal.ofBits .f32 0xFF800000#32 = ⊥ from by simp [Ideal.ofBits, Ideal.ieee], max_eq_right bot_le]
  exact ExtReal.eq_coe_of_lt hgt hlt

/-- A weight: `e^{score - shift}`. -/
theorem weight_at (b : Fin 4) (Q J : Fin 4096) (μr : ℝ) (hμ : val_main_v3 (F := Ideal) B C (ix2 b Q) = (μr : EReal)) :
    val_main_v7 (F := Ideal) B C (ix3 b Q J) = ((Real.exp (score Br Cr b Q J - μr) : ℝ) : EReal) := by
  have e : idx_main_v4 (idx_main_v5 (ix3 b Q J)) = ix2 b Q := funext fun a => by
    match a with
    | ⟨0, _⟩ => rfl
    | ⟨1, _⟩ => rfl
  rw [val_main_v7_apply, val_main_v6_apply, score_at B C Br Cr hB hC, val_main_v5_apply, val_main_v4_apply, e, hμ,
    Ideal.hostUnary_exp_def, Ideal.subf_def, ExtReal.exp_sub_coe]

/-- The sum of the weights. -/
theorem norm_at (b : Fin 4) (Q : Fin 4096) (μr : ℝ) (hμ : val_main_v3 (F := Ideal) B C (ix2 b Q) = (μr : EReal)) :
    val_main_v8 (F := Ideal) B C (ix2 b Q) = ((∑ k : Fin 4096, Real.exp (score Br Cr b Q k - μr) : ℝ) : EReal) := by
  rw [val_main_v8_apply, val_main_cst_1_apply, Ideal.ofBits_def, Ideal.ofBits_zero_f32, zero_add, ExtReal.coe_sum]
  refine Finset.sum_congr rfl fun k _ => ?_
  have e : idx_main_v8 (ix2 b Q) k = ix3 b Q k := funext fun a => by
    match a with
    | ⟨0, _⟩ => rfl
    | ⟨1, _⟩ => rfl
    | ⟨2, _⟩ => rfl
  rw [e, weight_at B C Br Cr hB hC b Q k μr hμ]

/-- A normalised weight. -/
theorem prob_at (b : Fin 4) (Q J : Fin 4096) (μr : ℝ) (hμ : val_main_v3 (F := Ideal) B C (ix2 b Q) = (μr : EReal)) :
    val_main_v11 (F := Ideal) B C (ix3 b Q J)
      = ((Real.exp (score Br Cr b Q J - μr) / ∑ k : Fin 4096, Real.exp (score Br Cr b Q k - μr) : ℝ) : EReal) := by
  have e : idx_main_v9 (idx_main_v10 (ix3 b Q J)) = ix2 b Q := funext fun a => by
    match a with
    | ⟨0, _⟩ => rfl
    | ⟨1, _⟩ => rfl
  have hpos : (∑ k : Fin 4096, Real.exp (score Br Cr b Q k - μr)) ≠ 0 :=
    (Finset.sum_pos (fun k _ => Real.exp_pos _) Finset.univ_nonempty).ne'
  rw [val_main_v11_apply, weight_at B C Br Cr hB hC b Q J μr hμ, val_main_v10_apply, val_main_v9_apply, e,
    norm_at B C Br Cr hB hC b Q μr hμ, Ideal.hostDivf_def, ExtReal.div_coe_coe _ hpos]

include hA

/-- The reference's result is the specification's average plus the residual. -/
theorem result_at (i : S4x512x4096.Idx) :
    val_main_v13 (F := Ideal) A B C i = ((avg Ar Br Cr (i 0) (i 1) (i 2) : ℝ) : EReal) + A i := by
  obtain ⟨b, ch, Q, rfl⟩ : ∃ (b : Fin 4) (ch : Fin 512) (Q : Fin 4096), i = ix3 b ch Q := ⟨i 0, i 1, i 2, eq_ix3 i⟩
  obtain ⟨μr, hμ⟩ := shift_real B C Br Cr hB hC b Q
  rw [val_main_v13_apply, Ideal.addf_def]
  refine congrArg (· + A (ix3 b ch Q)) ?_
  rw [val_main_v12_apply]
  show _ = ((avg Ar Br Cr b ch Q : ℝ) : EReal)
  rw [← avg_of_normalised Ar Br Cr b ch Q μr, ExtReal.coe_sum]
  refine Finset.sum_congr rfl fun k _ => ?_
  have e1 : lidx_main_v12 (ix3 b ch Q) k = ix3 b ch k := funext fun a => by
    match a with
    | ⟨0, _⟩ => rfl
    | ⟨1, _⟩ => rfl
    | ⟨2, _⟩ => rfl
  have e2 : ridx_main_v12 (ix3 b ch Q) k = ix3 b Q k := funext fun a => by
    match a with
    | ⟨0, _⟩ => rfl
    | ⟨1, _⟩ => rfl
    | ⟨2, _⟩ => rfl
  rw [e1, e2, hA, prob_at B C Br Cr hB hC b Q k μr hμ, ← EReal.coe_mul]

end

end Cert.ReferenceIdeal.RefValue

end
-- ==== Proof.lean ====
/-
  Attention with a residual, computed by streaming over key tiles, against the plain softmax form.

  Both programs compute, for batch `b`, channel `ch` and query position `Q`,
      out[b, ch, Q] = Σ_J a[b, ch, J] · softmax_J(score(b, Q, ·))(J) + a[b, ch, Q],    score(b, Q, J) = Σ_d c[b, J, d] · b[b, Q, d].
  The reference forms the 4096 × 4096 score matrix, subtracts each row's maximum, exponentiates, normalises and
  multiplies.  The kernel walks the key positions in four tiles of 1024 per query tile and keeps, per query lane, a
  running shift, a running sum of `e^{score - shift}` and running weighted sums; when the shift changes, the sums are
  rescaled by `e^{old - new}`; after the fourth tile it divides once and adds the residual.  Its shift starts from a large
  negative finite constant rather than from `-∞`.

  Over the exact extended reals, with every input a real number (the precondition), the two are equal because the
  softmax average `(Σ a_J e^{s_J - μ}) / (Σ e^{s_J - μ})` does not depend on the real shift `μ`: the proof never needs to know
  which real the kernel's or the reference's shift is, only that it is one.  The rescaling identity, and moving the one
  division inside the sum, are laws of the real field; they are used on reals only, which is where finiteness enters.
  The changes of number format in the kernel are the identity on exact values, and its two matrix products, lane
  maximum and lane sum read entry by entry as the textbook sums and maximum.

  Modules: OnlineSoftmax (the real algebra), ExtReal (extended-real facts), Spec (the result as one function),
  Finite (the precondition gives real entries), Pieces / Cases (what a run of the body leaves in the carried buffers, per
  control case), BodyAt (the body's arithmetic entry by entry), Lane (one streaming step on one lane, in reals), Blocks
  (the windows' blocks at coordinates), Invariant (induction over the grid), KernelValue (write-back and cover),
  RefValue (the reference, stage by stage).
-/
import proofs.«130554_j28587302322762_2_alg».proof.Defs
import proofs.«130554_j28587302322762_2_alg».proof.Proof.Gen.Kernel
import proofs.«130554_j28587302322762_2_alg».proof.Proof.Gen.Kernel.Skeleton
import proofs.«130554_j28587302322762_2_alg».proof.Proof.Gen.Kernel.Launch
import proofs.«130554_j28587302322762_2_alg».proof.Proof.Gen.Kernel.Points
import proofs.«130554_j28587302322762_2_alg».proof.Proof.Gen.Kernel.Frame
import proofs.«130554_j28587302322762_2_alg».proof.Proof.Gen.KernelIdeal
import proofs.«130554_j28587302322762_2_alg».proof.Proof.Gen.KernelIdeal.Skeleton
import proofs.«130554_j28587302322762_2_alg».proof.Proof.Gen.KernelIdeal.Launch
import proofs.«130554_j28587302322762_2_alg».proof.Proof.Gen.KernelIdeal.Points
import proofs.«130554_j28587302322762_2_alg».proof.Proof.Gen.KernelIdeal.Frame
import proofs.«130554_j28587302322762_2_alg».proof.Proof.Gen.ReferenceIdeal
import proofs.«130554_j28587302322762_2_alg».proof.Proof.Gen.Pre_finite_inputs
import proofs.«130554_j28587302322762_2_alg».proof.Proof.Gen.KernelIdeal.Value
import proofs.«130554_j28587302322762_2_alg».proof.Proof.Gen.ReferenceIdeal.Run
import proofs.«130554_j28587302322762_2_alg».proof.Proof.Gen.ReferenceIdeal.Read
import proofs.«130554_j28587302322762_2_alg».proof.Proof.Finite
import proofs.«130554_j28587302322762_2_alg».proof.Proof.KernelValue
import proofs.«130554_j28587302322762_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- So does the kernel read over exact values. -/
theorem frame_ki : Cert.frame_KernelIdeal := fun m ρ _ => Cert.KernelIdeal.Gen.frame m ρ

/-- The reference runs and leaves its arguments unchanged: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The exact reading of the kernel rewrote no operation. -/
theorem preserves : Cert.preserves_Kernel_KernelIdeal := trivial

/-- A value that is some real is the coercion of its real part. -/
theorem eq_coe_toReal {x : EReal} (h : ∃ r : ℝ, x = (r : EReal)) : x = ((x.toReal : ℝ) : EReal) := by
  obtain ⟨r, rfl⟩ := h
  rfl

/-- With real inputs, the kernel's result array and the reference's are the same function of the arguments. -/
theorem algebraic : Cert.algebraic_KernelIdeal_ReferenceIdeal := by
  intro m ρ m' ρ' hpre hagree
  have hreal := fun c : Dev Cert.KernelIdeal.nD => Cert.FiniteInputs.all_real _ _ _ (hpre c)
  have hA := fun (c : Dev Cert.KernelIdeal.nD) i => eq_coe_toReal ((hreal c).1 i)
  have hB := fun (c : Dev Cert.KernelIdeal.nD) i => eq_coe_toReal ((hreal c).2.1 i)
  have hC := fun (c : Dev Cert.KernelIdeal.nD) i => eq_coe_toReal ((hreal c).2.2 i)
  refine ⟨fun c => Cert.KernelIdeal.KernelValue.spec m c, Cert.KernelIdeal.KernelValue.run m ρ hA hB hC, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  refine (Cert.ReferenceIdeal.Read.val_main_v13_eq _ _ _).trans ?_
  funext i
  exact Cert.ReferenceIdeal.RefValue.result_at _ _ _ _ _ _ (hA c) (hB c) (hC c) i

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
